-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v0_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x256 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  main_v28

def fn {F : FTy → Type} [FloatOps F] (main_arg0 : FVec F S4096x256 .f32) (main_arg1 : FVec F S4096x4096 .f32) (main_arg2 : FVec F S4096x256 .f32) (main_arg3 : FVec F S4096x256 .f32) (main_arg4 : FVec F S4096x4096 .f32) (main_arg5 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_v13 main_v16
-- ==== Kernel.lean ====
abbrev S4096x256 : Shape := ⟨2, ![4096, 256]⟩
abbrev S4096x4096 : Shape := ⟨2, ![4096, 4096]⟩
abbrev S1024x512 : Shape := ⟨2, ![1024, 512]⟩
abbrev S1024x256 : Shape := ⟨2, ![1024, 256]⟩
abbrev S512x256 : Shape := ⟨2, ![512, 256]⟩
abbrev S_ : Shape := ⟨0, ![]⟩
abbrev S1024x1024 : Shape := ⟨2, ![1024, 1024]⟩

abbrev nBuf : Space → Nat
  | .hbm => 15
  | .vmem => 21
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x256, .f32⟩
  | .hbm, ⟨4, _⟩ => ⟨S4096x4096, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S4096x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S4096x256, .f32⟩
  | .local _ .vmem, ⟨19, _⟩ => ⟨S1024x1024, .f32⟩
  | .local _ .vmem, ⟨20, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v6 : Index := Scalar.indexCast v4
  let c0_2 : Index := 0#32
  ![v6.toNat, 0]
def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 4], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  let c0_1 : Index := 0#32
  ![v5.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  h_S512x256 : 0 < S512x256.numel
  bcast_S_S4096x256 : S_.BroadcastsInDim S4096x256 (![] : Fin 0 → Fin S4096x256.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S1024x512_S512x256_S1024x256_1_0_0_1_n_n_wf : DotDims.WF S1024x512 S512x256 S1024x256 [1] [0] [0] [1] [] []
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .f32 = 32 ∨ (Rect.block (s := S4096x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x256.size a
  hwx0_4 : ∀ i : grid0.Coords, EltTy.bits .f32 = 32 ∨ (Rect.block (s := S4096x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x256.size a
  hwx0_5 : ∀ i : grid0.Coords, EltTy.bits .f32 = 32 ∨ (Rect.block (s := S4096x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x256.size a
  hwx0_6 : ∀ i : grid0.Coords, EltTy.bits .f32 = 32 ∨ (Rect.block (s := S4096x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S4096x256.size a
  hwx0_7 : ∀ i : grid0.Coords, EltTy.bits .f32 = 32 ∨ (Rect.block (s := S4096x256) S1024x256.size (cc0_transform_7 i) (hinb0_7 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v0_3) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x256, .f32⟩
  | .hbm, ⟨4, _⟩ => ⟨S4096x4096, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .i1⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .i1⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S4096x256, .f32⟩
  | .hbm, ⟨61, _⟩ => ⟨S4096x256, .f32⟩
  | .hbm, ⟨62, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_call3_v0 : Ref sig .tc := ⟨.hbm, 33, rfl⟩
abbrev main_call3_v1 : Ref sig .tc := ⟨.hbm, 34, rfl⟩
abbrev main_v17 : Ref sig .tc := ⟨.hbm, 35, rfl⟩
abbrev main_cst_7 : Ref sig .tc := ⟨.hbm, 36, rfl⟩
abbrev main_cst_8 : Ref sig .tc := ⟨.hbm, 37, rfl⟩
abbrev main_call4_v0 : Ref sig .tc := ⟨.hbm, 38, rfl⟩
abbrev main_call4_v1 : Ref sig .tc := ⟨.hbm, 39, rfl⟩
abbrev main_v18 : Ref sig .tc := ⟨.hbm, 40, rfl⟩
abbrev main_v19 : Ref sig .tc := ⟨.hbm, 41, rfl⟩
abbrev main_cst_9 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_10 : Ref sig .tc := ⟨.hbm, 46, rfl⟩
abbrev main_v23 : Ref sig .tc := ⟨.hbm, 47, rfl⟩
abbrev main_v24 : Ref sig .tc := ⟨.hbm, 48, rfl⟩
abbrev main_cst_11 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_12 : Ref sig .tc := ⟨.hbm, 53, rfl⟩
abbrev main_v28 : Ref sig .tc := ⟨.hbm, 54, rfl⟩
abbrev main_v29 : Ref sig .tc := ⟨.hbm, 55, rfl⟩
abbrev main_cst_13 : Ref sig .tc := ⟨.hbm, 56, rfl⟩
abbrev main_v30 : Ref sig .tc := ⟨.hbm, 57, rfl⟩
abbrev main_v31 : Ref sig .tc := ⟨.hbm, 58, rfl⟩
abbrev main_cst_14 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []
  dot_S4096x256_S4096x256_S4096x4096_1_1_0_0_n_n_wf : DotDims.WF S4096x256 S4096x256 S4096x4096 [1] [1] [0] [0] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S4096x256_S4096x4096_1_1_0_0_n_n : DotDims S4096x256 S4096x256 S4096x4096 where
  lhsContracting := [1]
  rhsContracting := [1]
  lhsNonContracting := [0]
  rhsNonContracting := [0]
  lhsBatch := []
  rhsBatch := []
  wf := dot_S4096x256_S4096x256_S4096x4096_1_1_0_0_n_n_wf

class Facts : Prop extends Facts₀ where

variable [Facts]
-- ==== Proof.I.R0Base.lean ====
/-
  Region 0 (the blocked product W · inputs accumulated over the second grid axis, with the neuron update at
  the last step of each row block): what the three control cases of its body share.  The grid is 4 × 8,
  point t = 8·i + k; the body resets the accumulator where k = 0, adds one 1024 × 512 by 512 × 256 product at
  every point, and writes the four results where k = 7.  Stated at a parameter V: the unscoped buffers'
  contents when the region is entered.
-/
import proofs.«139415_j41248865910902_2_alg».proof.Proof.Gen.KernelIdeal.Launch
import proofs.«139415_j41248865910902_2_alg».proof.Proof.Gen.KernelIdeal.Skeleton
import proofs.«139415_j41248865910902_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: unfetched, its block
    index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the first step of the row block" (k = 0): the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last step of the row block" (k = 7): the results are written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step the four results' windows are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
/-- At the last step they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The staging memrefs at a point, and the accumulator -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0 : Memref sig .tc .vmem S1024x256 .f32 := Memref.whole cc0_scratch0
/-- Views through which a result's and the accumulator's contents are stated. -/
abbrev VO0 : View sig .tc .vmem S1024x256 .f32 := (Memref.whole cc0_stg4_0 : Memref sig .tc .vmem S1024x256 .f32).view
abbrev VS0 : View sig .tc .vmem S1024x256 .f32 := scM0.view

/-- The rest the region's invariant holds — every scoped buffer that stages no window of this region, and the
    generator register — with the accumulator singled out as a memref owned at some contents. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0, owns_whole]; try rfl

end Cert.KernelIdeal.Hand

end
-- ==== Proof.I.R0RunA.lean ====
/-
  Region 0, the first step of a row block (k = 0): the body resets the accumulator, then adds the step's
  product into it; the four results' buffers are not touched.  The pieces the accumulator ends with are
  found by running the body.
-/
import proofs.«139415_j41248865910902_2_alg».proof.Proof.I.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where k = 0, on whole staging memrefs: the inputs' at their contents, the four results' handed back
    untouched, the accumulator at anything; it ends with the accumulator's pieces `LS` written. -/
noncomputable def kernelRun0_A (c : Dev nD) (i : grid0.Coords) (arg2 : Memref sig .tc .vmem S1024x512 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x512 .f32) (x1 : Vec F S4096x256 .f32) (x2 : Vec F S1024x256 .f32) (x3 : Vec F S1024x256 .f32) :
    { LS : List (View.Piece (Elt F) S1024x256 .f32) //
      ∀ (xi4 xi5 xi6 xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, fun xi4 xi5 xi6 xi7 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Hand

end
-- ==== Proof.I.R0RunB.lean ====
/-
  Region 0, an inner step of a row block (0 < k < 7): the body adds the step's product into the accumulator,
  which holds what the step before left; the four results' buffers are not touched.
-/
import proofs.«139415_j41248865910902_2_alg».proof.Proof.I.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where 0 < k < 7, on whole staging memrefs: the inputs' at their contents, the four results' handed
    back untouched, the accumulator at the contents `xs` the step before left; it ends with the accumulator's
    pieces `LS` written. -/
noncomputable def kernelRun0_B (c : Dev nD) (i : grid0.Coords) (arg2 : Memref sig .tc .vmem S1024x512 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x512 .f32) (x1 : Vec F S4096x256 .f32) (x2 : Vec F S1024x256 .f32) (x3 : Vec F S1024x256 .f32) (xs : Vec F S1024x256 .f32) :
    { LS : List (View.Piece (Elt F) S1024x256 .f32) //
      ∀ (xi4 xi5 xi6 xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, fun xi4 xi5 xi6 xi7 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Hand

end
-- ==== Proof.I.R0RunC.lean ====
/-
  Region 0, the last step of a row block (k = 7): the body adds the step's product into the accumulator and
  then, from the finished accumulator and the row block's u and r, computes the spikes, the new potentials,
  the new refractory counters and the pseudo-derivative, storing each whole into its result's buffer.
-/
import proofs.«139415_j41248865910902_2_alg».proof.Proof.I.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body where k = 7, on whole staging memrefs: the inputs' at their contents, the four results' at anything,
    the accumulator at the contents `xs` the step before left; it ends with each result's pieces `L4 … L7` and
    the accumulator's pieces `LS` written. -/
noncomputable def kernelRun0_C (c : Dev nD) (i : grid0.Coords) (arg2 : Memref sig .tc .vmem S1024x512 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x512 .f32) (x1 : Vec F S4096x256 .f32) (x2 : Vec F S1024x256 .f32) (x3 : Vec F S1024x256 .f32) (xs : Vec F S1024x256 .f32) :
    Σ' (L4 : List (View.Piece (Elt F) S1024x256 .f32)) (L5 : List (View.Piece (Elt F) S1024x256 .f32)) (L6 : List (View.Piece (Elt F) S1024x256 .f32)) (L7 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3
    obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact HS

end Cert.KernelIdeal.Hand

end
-- ==== Proof.I.R0Frame.lean ====
/-
  Region 0 as one pipeline: what the accumulator and the four results' buffers hold after each grid point, by
  recursion on the point (the accumulator restarts where k = 0, otherwise continues from the point before; the
  results are written where k = 7); the region's invariant, which carries the accumulator at those contents
  from point to point; the pipeline's proof data; and the body's obligation at every point.
-/
import proofs.«139415_j41248865910902_2_alg».proof.Proof.I.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

theorem notlast_of_first (t : Fin cfg0.N) (h0 : t.val % 8 = 0) : ¬cond0_1 (grid0.coords t) :=
  fun h => by have := (hcond0_1 t).mp h; omega

/-- The run of the body at a point where k = 0, on the point's staging memrefs and blocks. -/
def runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (notlast_of_first t h0) (iblk0 V c 0 t) (iblk0 V c 1 t) (iblk0 V c 2 t) (iblk0 V c 3 t)
/-- The run where 0 < k < 7, the accumulator found at `xs`. -/
def runB (c : Dev nD) (t : Fin cfg0.N) (h0 : ¬t.val % 8 = 0) (h1 : ¬t.val % 8 = 7) (xs : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) xs
/-- The run where k = 7, the accumulator found at `xs`. -/
def runC (c : Dev nD) (t : Fin cfg0.N) (h0 : ¬t.val % 8 = 0) (h1 : t.val % 8 = 7) (xs : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) xs

/-- A buffer's contents after a list of stores that cover it: the stores read back (over anything). -/
def readBack (L : List (View.Piece (Elt F) S1024x256 .f32)) : Vec F S1024x256 .f32 :=
  VS0.read (Elt F) (VS0.writes (Elt F) VS0.junk L)

/-- In each case the accumulator's stores cover it (the last one is whole). -/
theorem scoverA (c : Dev nD) (t : Fin cfg0.N) (h0 : t.val % 8 = 0) (y : S1024x256.Idx) :
    ∃ pc ∈ (runA V c t h0).1, y ∈ pc.1.set :=
  View.cover_of_tiledL (runA V c t h0).1 S1024x256.size (by unfold runA; sl_kernel_rfl) y
theorem scoverB (c : Dev nD) (t : Fin cfg0.N) (h0 : ¬t.val % 8 = 0) (h1 : ¬t.val % 8 = 7) (xs : Vec F S1024x256 .f32) (y : S1024x256.Idx) :
    ∃ pc ∈ (runB V c t h0 h1 xs).1, y ∈ pc.1.set :=
  View.cover_of_tiledL (runB V c t h0 h1 xs).1 S1024x256.size (by unfold runB; sl_kernel_rfl) y
theorem scoverC (c : Dev nD) (t : Fin cfg0.N) (h0 : ¬t.val % 8 = 0) (h1 : t.val % 8 = 7) (xs : Vec F S1024x256 .f32) (y : S1024x256.Idx) :
    ∃ pc ∈ (runC V c t h0 h1 xs).2.2.2.2.1, y ∈ pc.1.set :=
  View.cover_of_tiledL (runC V c t h0 h1 xs).2.2.2.2.1 S1024x256.size (by unfold runC; sl_kernel_rfl) y
/-- Where k = 7 each result's one store covers its buffer. -/
theorem cover4 (c : Dev nD) (t : Fin cfg0.N) (h0 : ¬t.val % 8 = 0) (h1 : t.val % 8 = 7) (xs : Vec F S1024x256 .f32) (y : S1024x256.Idx) :
    ∃ pc ∈ (runC V c t h0 h1 xs).1, y ∈ pc.1.set :=
  View.cover_of_tiledL (runC V c t h0 h1 xs).1 S1024x256.size (by unfold runC; sl_kernel_rfl) y
theorem cover5 (c : Dev nD) (t : Fin cfg0.N) (h0 : ¬t.val % 8 = 0) (h1 : t.val % 8 = 7) (xs : Vec F S1024x256 .f32) (y : S1024x256.Idx) :
    ∃ pc ∈ (runC V c t h0 h1 xs).2.1, y ∈ pc.1.set :=
  View.cover_of_tiledL (runC V c t h0 h1 xs).2.1 S1024x256.size (by unfold runC; sl_kernel_rfl) y
theorem cover6 (c : Dev nD) (t : Fin cfg0.N) (h0 : ¬t.val % 8 = 0) (h1 : t.val % 8 = 7) (xs : Vec F S1024x256 .f32) (y : S1024x256.Idx) :
    ∃ pc ∈ (runC V c t h0 h1 xs).2.2.1, y ∈ pc.1.set :=
  View.cover_of_tiledL (runC V c t h0 h1 xs).2.2.1 S1024x256.size (by unfold runC; sl_kernel_rfl) y
theorem cover7 (c : Dev nD) (t : Fin cfg0.N) (h0 : ¬t.val % 8 = 0) (h1 : t.val % 8 = 7) (xs : Vec F S1024x256 .f32) (y : S1024x256.Idx) :
    ∃ pc ∈ (runC V c t h0 h1 xs).2.2.2.1, y ∈ pc.1.set :=
  View.cover_of_tiledL (runC V c t h0 h1 xs).2.2.2.1 S1024x256.size (by unfold runC; sl_kernel_rfl) y

/-! ## What the buffers hold after each point -/

/-- The state after a point: the four results' buffers (spikes, potentials, counters, pseudo-derivative) and the
    accumulator. Away from k = 7 the results' components are placeholders nothing consults. -/
structure St (F : FTy → Type) [FloatOps F] where
  z : Vec F S1024x256 .f32
  nu : Vec F S1024x256 .f32
  nr : Vec F S1024x256 .f32
  h : Vec F S1024x256 .f32
  acc : Vec F S1024x256 .f32

/-- THE ACCUMULATION: after point n, by recursion on n. -/
def outsAt0 (c : Dev nD) : (n : ℕ) → n < cfg0.N → St F
  | 0, hn => ⟨readBack [], readBack [], readBack [], readBack [], readBack (runA V c ⟨0, hn⟩ (Nat.zero_mod _)).1⟩
  | n + 1, hn =>
    if h0 : (n + 1) % 8 = 0 then
      ⟨readBack [], readBack [], readBack [], readBack [], readBack (runA V c ⟨n + 1, hn⟩ h0).1⟩
    else if h1 : (n + 1) % 8 = 7 then
      ⟨readBack (runC V c ⟨n + 1, hn⟩ h0 h1 (outsAt0 c n (Nat.lt_of_succ_lt hn)).acc).1,
       readBack (runC V c ⟨n + 1, hn⟩ h0 h1 (outsAt0 c n (Nat.lt_of_succ_lt hn)).acc).2.1,
       readBack (runC V c ⟨n + 1, hn⟩ h0 h1 (outsAt0 c n (Nat.lt_of_succ_lt hn)).acc).2.2.1,
       readBack (runC V c ⟨n + 1, hn⟩ h0 h1 (outsAt0 c n (Nat.lt_of_succ_lt hn)).acc).2.2.2.1,
       readBack (runC V c ⟨n + 1, hn⟩ h0 h1 (outsAt0 c n (Nat.lt_of_succ_lt hn)).acc).2.2.2.2.1⟩
    else
      ⟨readBack [], readBack [], readBack [], readBack [],
       readBack (runB V c ⟨n + 1, hn⟩ h0 h1 (outsAt0 c n (Nat.lt_of_succ_lt hn)).acc).1⟩

/-- The state the point before `t` left (for `t` not the first point). -/
def prevAt (c : Dev nD) (t : Fin cfg0.N) : St F :=
  outsAt0 V c (t.val - 1) (Nat.lt_of_le_of_lt (Nat.sub_le _ _) t.isLt)

theorem outsAt0_A (c : Dev nD) (t : Fin cfg0.N) (h0 : t.val % 8 = 0) :
    outsAt0 V c t.val t.isLt = ⟨readBack [], readBack [], readBack [], readBack [], readBack (runA V c t h0).1⟩ := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = ⟨readBack [], readBack [], readBack [], readBack [], readBack (runB V c t h0 h1 (prevAt V c t).acc).1⟩ := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt =
      ⟨readBack (runC V c t h0 h1 (prevAt V c t).acc).1, readBack (runC V c t h0 h1 (prevAt V c t).acc).2.1,
       readBack (runC V c t h0 h1 (prevAt V c t).acc).2.2.1, readBack (runC V c t h0 h1 (prevAt V c t).acc).2.2.2.1,
       readBack (runC V c t h0 h1 (prevAt V c t).acc).2.2.2.2.1⟩ := by
  obtain ⟨n, hn⟩ := t
  cases n with
  | zero => exact absurd (Nat.zero_mod _) h0
  | succ n => exact (dif_neg h0).trans ((dif_pos h1).trans rfl)

/-! ## The region's invariant -/

/-- The scoped buffers that are neither a staging buffer of this region nor the accumulator (the other region's
    staging buffers), each at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq' (c : Dev nD) :
    (Pipeline.ΦA spec0 c : sProp 𝕄) = iprop(iprop((∃ d, owns (c : Thread nD τ) scM0 fullShare d) ∗ restS0 c) ∗ (∃ r, prngReg c r)) := by
  rw [PhiA0_eq]; rfl

/-- Before point n: at the region's entry every scoped buffer at anything; afterwards the accumulator at what the
    point before left, the rest at anything. -/
def PhiS (c : Dev nD) : (n : ℕ) → n ≤ cfg0.N → sProp 𝕄
  | 0, _ => Pipeline.ΦA spec0 c
  | n + 1, hn => iprop(iprop(owns (c : Thread nD τ) scM0 fullShare (outsAt0 V c n hn).acc ∗ restS0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (outsAt0 V c n hn).acc ∗ restS0 c) ∗ (∃ r, prngReg c r)) := rfl
theorem PhiS_pos (c : Dev nD) (n : ℕ) (h : n ≤ cfg0.N) (hz : n ≠ 0) :
    PhiS V c n h = iprop(iprop(owns (c : Thread nD τ) scM0 fullShare (outsAt0 V c (n - 1) (by omega)).acc ∗ restS0 c) ∗ (∃ r, prngReg c r)) := by
  cases n with
  | zero => exact absurd rfl hz
  | succ n => rfl

/-! ## The pipeline's proof data -/

/-- The proof data of region 0 on core c: the arrays as the region finds them; after the body at point t each
    input's buffer at its block and each result's at the state's component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).z
    | ⟨5, _⟩ => (outsAt0 V c t.val t.isLt).nu
    | ⟨6, _⟩ => (outsAt0 V c t.val t.isLt).nr
    | ⟨7, _⟩ => (outsAt0 V c t.val t.isLt).h
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).z := by dsimp only [dat0]
theorem after0_5 (c : Dev nD) (t : Fin cfg0.N) : (dat0 V c).after 5 t = (outsAt0 V c t.val t.isLt).nu := by dsimp only [dat0]
theorem after0_6 (c : Dev nD) (t : Fin cfg0.N) : (dat0 V c).after 6 t = (outsAt0 V c t.val t.isLt).nr := by dsimp only [dat0]
theorem after0_7 (c : Dev nD) (t : Fin cfg0.N) : (dat0 V c).after 7 t = (outsAt0 V c t.val t.isLt).h := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t)

theorem leaves_in0 (c : Dev nD) (t : Fin cfg0.N) : (dat0 V c).leavesExact 0 t = owns (c : Thread nD τ) (ms0_0 t) fullShare (iblk0 V c 0 t) := by
  unfold Dat.leavesExact; rw [liveAt0_0 t, after0_0]
theorem leaves_in1 (c : Dev nD) (t : Fin cfg0.N) : (dat0 V c).leavesExact 1 t = owns (c : Thread nD τ) (ms0_1 t) fullShare (iblk0 V c 1 t) := by
  unfold Dat.leavesExact; rw [liveAt0_1 t, after0_1]
theorem leaves_in2 (c : Dev nD) (t : Fin cfg0.N) : (dat0 V c).leavesExact 2 t = owns (c : Thread nD τ) (ms0_2 t) fullShare (iblk0 V c 2 t) := by
  unfold Dat.leavesExact; rw [liveAt0_2 t, after0_2]
theorem leaves_in3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 8000000 in
/-- The body at any point: the inputs' buffers hold their blocks; the point's residue mod 8 says which case it
    is in; the invariant hands over the accumulator at what the point before left (at anything at the very first
    point) and takes it back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves_in0, leaves_in1, leaves_in2, leaves_in3]
  have hN : t.val < 32 := lt_of_lt_of_eq t.isLt (show cfg0.N = 32 from N_0)
  by_cases h0 : t.val % 8 = 0
  · have hc1 := notlast_of_first t h0
    rw [Dat.leavesExact_idle (dat0 V c) 4 t (idleAt0_4 t hc1) (noFlush0_4 t hc1), Dat.leavesExact_idle (dat0 V c) 5 t (idleAt0_5 t hc1) (noFlush0_5 t hc1),
      Dat.leavesExact_idle (dat0 V c) 6 t (idleAt0_6 t hc1) (noFlush0_6 t hc1), Dat.leavesExact_idle (dat0 V c) 7 t (idleAt0_7 t hc1) (noFlush0_7 t hc1)]
    rw [outsAt0_A V c t h0]
    dsimp only
    by_cases hz : t.val = 0
    · rw [PhiS_castSucc V c t, PhiS_zero V c _ _ hz, PhiA0_eq']
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0).2 _ _ _ _ Set.univ _)
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scoverA V c t h0)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0).2 _ _ _ _ Set.univ _)
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scoverA V c t h0)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7
  · have hz : t.val ≠ 0 := fun e => h0 (by rw [e])
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [show (dat0 V c).leavesExact 6 t = owns (c : Thread nD τ) (ms0_6 t) fullShare ((dat0 V c).after 6 t) from by
        unfold Dat.leavesExact; rw [liveAt0_6 t hc1], after0_6]
      rw [show (dat0 V c).leavesExact 7 t = owns (c : Thread nD τ) (ms0_7 t) fullShare ((dat0 V c).after 7 t) from by
        unfold Dat.leavesExact; rw [liveAt0_7 t hc1], after0_7]
      rw [outsAt0_C V c t h0 h1]
      dsimp only
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 (prevAt V c t).acc).2.2.2.2.2 Set.univ _)
      · isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS]; · iexact HS
        iintro ⟨H0, H1, H2, H3, ⟨%e4, H4⟩, ⟨%e5, H5⟩, ⟨%e6, H6⟩, ⟨%e7, H7⟩, ⟨%es, HS⟩⟩
        isplitl [HS Hrest Hg]
        · isplitl [HS Hrest]
          · isplitl [HS]
            · unfold owns; iexists _; isplitr
              swap; · iexact HS
              ipureintro; exact View.read_writes_of_cover _ _ _ _ _ (scoverC V c t h0 h1 _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover4 V c t h0 h1 _)
        isplitl [H5]
        · unfold owns; iexists _; isplitr
          swap; · iexact H5
          ipureintro; exact View.read_writes_of_cover _ _ _ _ _ (cover5 V c t h0 h1 _)
        isplitl [H6]
        · unfold owns; iexists _; isplitr
          swap; · iexact H6
          ipureintro; exact View.read_writes_of_cover _ _ _ _ _ (cover6 V c t h0 h1 _)
        unfold owns; iexists _; isplitr
        swap; · iexact H7
        ipureintro; exact View.read_writes_of_cover _ _ _ _ _ (cover7 V c t h0 h1 _)
    · have hc1 : ¬cond0_1 (grid0.coords t) := fun h => h1 ((hcond0_1 t).mp h)
      rw [Dat.leavesExact_idle (dat0 V c) 4 t (idleAt0_4 t hc1) (noFlush0_4 t hc1), Dat.leavesExact_idle (dat0 V c) 5 t (idleAt0_5 t hc1) (noFlush0_5 t hc1),
        Dat.leavesExact_idle (dat0 V c) 6 t (idleAt0_6 t hc1) (noFlush0_6 t hc1), Dat.leavesExact_idle (dat0 V c) 7 t (idleAt0_7 t hc1) (noFlush0_7 t hc1)]
      rw [outsAt0_B V c t h0 h1]
      dsimp only
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 (prevAt V c t).acc).2 _ _ _ _ Set.univ _)
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scoverB V c t h0 h1 _)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped rest back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl,
    PhiS_pos V c _ _ hne, PhiA0_eq']
  iintro ⟨⟨HS, Hrest⟩, Hg⟩
  isplitl [HS Hrest]
  · isplitl [HS]
    · iexists _; iexact HS
    iexact Hrest
  iexact Hg

end Cert.KernelIdeal.Hand

end
-- ==== Proof.I.R1Frame.lean ====
/-
  Region 1 (the outer product new_e = h · new_epsᵀ, one 1024 × 1024 block per grid point): its pipeline's proof
  data and the body's obligation.  The grid is 4 × 4, point t = 4·i + j; the body reads row block i of h (its whole
  window), rows 1024·j to 1024·j + 1023 of new_eps (a slab of the window that holds the whole array, at an offset
  computed from j), and writes the product of the two, contracting the 256 axis, over the whole result block (i, j),
  which is written back at every point.  Stated at a parameter V: the unscoped buffers' contents when the region is
  entered.
-/
import proofs.«139415_j41248865910902_2_alg».proof.Proof.Gen.KernelIdeal.Launch
import proofs.«139415_j41248865910902_2_alg».proof.Proof.Gen.KernelIdeal.Skeleton
import proofs.«139415_j41248865910902_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: unfetched, its block
    index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of the row block of h. -/
abbrev r1_0 : Rect S1024x256 := Rect.unit (s := S1024x256) ![0, 0] S1024x256.size inb_S1024x256_S1024x256_0_0
/-- The 1024 rows of new_eps that start at row 1024·j, where j is the point's second coordinate. -/
abbrev r1_1 (i : grid1.Coords) : Rect S4096x256 := Rect.unit (s := S4096x256) (k1_off1 i) S1024x256.size (k1_off1_inb i)
/-- The whole of the result block. -/
abbrev r1_2 : Rect S1024x1024 := Rect.unit (s := S1024x1024) ![0, 0] S1024x1024.size inb_S1024x1024_S1024x1024_0_0

/-! ## What the body leaves in the result window's buffer -/

/-- The result block after the body at grid point `i`, from the two inputs' buffers: one store, of the product of the
    row block of h with the slab of new_eps, over the whole block. -/
def out1_2 (i : grid1.Coords) (x0 : Vec F S1024x256 .f32) (x1 : Vec F S4096x256 .f32) : Vec F S1024x1024 .f32 :=
  View.canon [⟨r1_2, k1_pay1 (View.ld x0 r1_0) (View.ld x1 (r1_1 i))⟩]

/-- The one store is over the whole block, so it covers it. -/
theorem cover1_2 (p0 : Vec F S1024x1024 .f32) (y : S1024x1024.Idx) :
    ∃ pc ∈ ([⟨r1_2, p0⟩] : List (View.Piece (Elt F) S1024x1024 .f32)), y ∈ pc.1.set :=
  View.cover_of_tiled [⟨r1_2, p0⟩] S1024x1024.size (by rfl) y

/-- A store over the whole block leaves its payload, and a load of a whole buffer reads its contents: the block is the
    product of the row block of h with the 1024-row slab of new_eps. -/
theorem out1_2_eq (i : grid1.Coords) (x0 : Vec F S1024x256 .f32) (x1 : Vec F S4096x256 .f32) :
    out1_2 i x0 x1 = k1_pay1 x0 (View.ld x1 (Rect.unit (s := S4096x256) (k1_off1 i) S1024x256.size (k1_off1_inb i))) := by
  unfold out1_2 r1_2 r1_0 r1_1
  rw [View.canon_unit_zero (by funext a; fin_cases a <;> rfl), View.ld_unit_zero (by funext a; fin_cases a <;> rfl)]

/-! ## The body's triple -/

set_option maxHeartbeats 1000000 in
/-- The body at grid point `i` on whole staging memrefs, the two inputs' at their contents and the result's at
    anything, runs to the continuation holding the inputs' as they were and the result's at `out1_2` of them. -/
theorem sound_kernel1 (c : Dev nD) (E : Set ℕ) (i : grid1.Coords) (arg0 : Memref sig .tc .vmem S1024x256 .f32) (harg0 : arg0.IsWhole) (arg1 : Memref sig .tc .vmem S4096x256 .f32) (harg1 : arg1.IsWhole) (arg2 : Memref sig .tc .vmem S1024x1024 .f32) (harg2 : arg2.IsWhole)
    (x0 : Vec F S1024x256 .f32) (x1 : Vec F S4096x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 i x0 x1)) -∗ K ⟨⟩))
      ⊢ wp frame (wpE (defs₀ (F := F)) Variants.none c none) E (cc1__kernel_c i arg0 harg0 arg1 harg1 arg2 harg2) K := by
  simp only [cc1__kernel_c_eq_skeleton]; unfold cc1__kernel_c_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them; after the body at point
    `t` each input's buffer at its block and the result's at `out1_2` of the two input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.I.Run.lean ====
/-
  The whole program as one run: region 0 (the blocked product with the neuron update), the host stretch that
  forms new_eps = 0.1 · eps + inputs, and region 1 (the outer product h · new_epsᵀ), one after the other from the
  launch to the return.  What every unscoped buffer holds is followed through the three items: region 0 leaves
  its four results' arrays at what its write-backs fold to and every other buffer as it found it; the host
  stretch rewrites the buffers its operations write; region 1 leaves its result's array likewise.  The run's post
  names the last of these contents for every unscoped buffer; from it, that the six argument arrays end as
  launched, and what each of the six results holds.
-/
import proofs.«139415_j41248865910902_2_alg».proof.Proof.I.R0Frame
import proofs.«139415_j41248865910902_2_alg».proof.Proof.I.R1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the unscoped buffers hold between the items -/

/-- Core c's buffers at launch. Nothing runs before region 0: these are the contents it is entered with. -/
abbrev W0 : Dev nD → Valuation τ sig (Elt F) := fun c b => (s₀ m ρ).mem ((c : Dev nD), b)
/-- Region 0's entry contents (the launch's), under the name the later boundaries continue. -/
abbrev W1 : Dev nD → Valuation τ sig (Elt F) := W0 m ρ
/-- The same read at the TensorCore's references: the contents region 0's proof data are taken at. -/
abbrev V1 : (c : Dev nD) → (b : Ref sig .tc) → Buf (Elt F) ((c : Thread nD τ).loc b) := fun c b => W0 m ρ c b
/-- After region 0: each of its eight arrays at what the pipeline leaves there (an input as entered, a result at
    its write-backs folded over the grid), every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch (region 1's entry): the constant 0.1, its broadcast, 0.1 · eps and
    new_eps = 0.1 · eps + inputs written over what region 0 left. -/
abbrev W3 : Dev nD → Valuation τ sig (Elt F) := fun c => StableHlo.after hostOps1 (W2 m ρ c)
/-- The same read at the TensorCore's references: the contents region 1's proof data are taken at. -/
abbrev V3 : (c : Dev nD) → (b : Ref sig .tc) → Buf (Elt F) ((c : Thread nD τ).loc b) := fun c b => W3 m ρ c b
/-- After region 1, the end of the run: its three arrays at what the pipeline leaves there, every other buffer
    as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretch writes -/

/-- The four buffers the host stretch writes: the constant, its broadcast, the product, and new_eps. -/
abbrev hostW : List (Ref sig .tc) := [main_cst, main_v1, main_v2, main_v3]
theorem hostOps1_writes : (hostOps1 : List (HloOp τ sig (Elt F))).Forall fun op =>
    op.writes ⊆ (hostW.map (Proc.devRef (τ := τ) .tc)).toFinset := by
  simp only [List.Forall]
  refine ⟨?_, ?_, ?_, ?_⟩ <;>
    (simp only [StableHlo.nullary_writes, StableHlo.unary_writes, StableHlo.binary_writes, Finset.singleton_subset_iff, List.mem_toFinset]
     exact List.mem_map_of_mem (by decide))
/-- Any other buffer is after the host stretch what it was before. -/
theorem W3_of_ne (c : Dev nD) (b : Ref sig .tc) (hb : b ∉ hostW) :
    W3 m ρ c (Proc.devRef .tc b) = W2 m ρ c (Proc.devRef .tc b) :=
  StableHlo.after_of_writes_sub hostOps1 _ hostOps1_writes hb
/-- No operation of the host stretch allocates a buffer. -/
theorem hostOps1_fresh : (hostOps1 : List (HloOp τ sig (Elt F))).Forall fun op => op.fresh = ∅ := by
  simp only [List.Forall]; repeat' constructor

/-! ## The arguments end as launched

No item writes an argument: region 0 reads main_arg1, main_arg0, main_arg2, main_arg3 through its input windows
0 to 3 (an input's array is left as entered) and does not touch main_arg4, main_arg5; the host stretch writes
none of the six; region 1 touches none of them. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W0 m ρ c (Proc.devRef .tc main_arg0) := (W2_arr m ρ c 1).trans (((dat0 (V1 m ρ) c).arrAt_in 1 rfl _).trans (A_eq0 (V1 m ρ) c 1))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W0 m ρ c (Proc.devRef .tc main_arg1) := (W2_arr m ρ c 0).trans (((dat0 (V1 m ρ) c).arrAt_in 0 rfl _).trans (A_eq0 (V1 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W0 m ρ c (Proc.devRef .tc main_arg2) := (W2_arr m ρ c 2).trans (((dat0 (V1 m ρ) c).arrAt_in 2 rfl _).trans (A_eq0 (V1 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W0 m ρ c (Proc.devRef .tc main_arg3) := (W2_arr m ρ c 3).trans (((dat0 (V1 m ρ) c).arrAt_in 3 rfl _).trans (A_eq0 (V1 m ρ) c 3))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W0 m ρ c (Proc.devRef .tc main_arg4) := W2_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W0 m ρ c (Proc.devRef .tc main_arg5) := W2_of_ne m ρ c main_arg5 (by decide)
    _ = m ((c : Thread nD τ).loc main_arg5) := rfl

/-! ## What the results hold at the end

The spikes, potentials and counters (main_v0_0, main_v0_1, main_v0_2) are region 0's result windows 4, 5, 6; nothing
after region 0 touches them.  The pseudo-derivative h (main_v0_3) is its window 7; region 1 reads it through its input
window 0, which leaves it as entered.  new_eps (main_v3) is the host stretch's; region 1 reads it through its input
window 1.  new_e (main_v4) is region 1's result window 2. -/

theorem W4_main_v0_0 (c : Dev nD) : W4 m ρ c (Proc.devRef .tc main_v0_0) = (dat0 (V1 m ρ) c).arrAt 4 cfg0.N :=
  calc W4 m ρ c (Proc.devRef .tc main_v0_0)
    _ = W3 m ρ c (Proc.devRef .tc main_v0_0) := W4_of_ne m ρ c main_v0_0 (by decide)
    _ = W2 m ρ c (Proc.devRef .tc main_v0_0) := W3_of_ne m ρ c main_v0_0 (by decide)
    _ = (dat0 (V1 m ρ) c).arrAt 4 cfg0.N := W2_arr m ρ c 4
theorem W4_main_v0_1 (c : Dev nD) : W4 m ρ c (Proc.devRef .tc main_v0_1) = (dat0 (V1 m ρ) c).arrAt 5 cfg0.N :=
  calc W4 m ρ c (Proc.devRef .tc main_v0_1)
    _ = W3 m ρ c (Proc.devRef .tc main_v0_1) := W4_of_ne m ρ c main_v0_1 (by decide)
    _ = W2 m ρ c (Proc.devRef .tc main_v0_1) := W3_of_ne m ρ c main_v0_1 (by decide)
    _ = (dat0 (V1 m ρ) c).arrAt 5 cfg0.N := W2_arr m ρ c 5
theorem W4_main_v0_2 (c : Dev nD) : W4 m ρ c (Proc.devRef .tc main_v0_2) = (dat0 (V1 m ρ) c).arrAt 6 cfg0.N :=
  calc W4 m ρ c (Proc.devRef .tc main_v0_2)
    _ = W3 m ρ c (Proc.devRef .tc main_v0_2) := W4_of_ne m ρ c main_v0_2 (by decide)
    _ = W2 m ρ c (Proc.devRef .tc main_v0_2) := W3_of_ne m ρ c main_v0_2 (by decide)
    _ = (dat0 (V1 m ρ) c).arrAt 6 cfg0.N := W2_arr m ρ c 6
/-- h as region 1 finds it is what region 0 left. -/
theorem V3_main_v0_3 (c : Dev nD) : V3 m ρ c main_v0_3 = (dat0 (V1 m ρ) c).arrAt 7 cfg0.N :=
  (W3_of_ne m ρ c main_v0_3 (by decide)).trans (W2_arr m ρ c 7)
theorem W4_main_v0_3 (c : Dev nD) : W4 m ρ c (Proc.devRef .tc main_v0_3) = (dat0 (V1 m ρ) c).arrAt 7 cfg0.N :=
  calc W4 m ρ c (Proc.devRef .tc main_v0_3)
    _ = W3 m ρ c (Proc.devRef .tc main_v0_3) := (W4_arr m ρ c 0).trans (((dat1 (V3 m ρ) c).arrAt_in 0 rfl _).trans (A_eq1 (V3 m ρ) c 0))
    _ = (dat0 (V1 m ρ) c).arrAt 7 cfg0.N := V3_main_v0_3 m ρ c
theorem W4_main_v3 (c : Dev nD) : W4 m ρ c (Proc.devRef .tc main_v3) = W3 m ρ c (Proc.devRef .tc main_v3) :=
  (W4_arr m ρ c 1).trans (((dat1 (V3 m ρ) c).arrAt_in 1 rfl _).trans (A_eq1 (V3 m ρ) c 1))
theorem W4_main_v4 (c : Dev nD) : W4 m ρ c (Proc.devRef .tc main_v4) = (dat1 (V3 m ρ) c).arrAt 2 cfg1.N :=
  W4_arr m ρ c 2

/-! ## The proof data family and the thread state -/

/-- Neither region has a prefetched table. -/
abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A host stretch over the unscoped buffers from the contents W, the register and the dues beside it; it ends
    with the buffers at what the operations, in order, make of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the dues apart: every unscoped buffer at the last contents, the register at some state. -/
abbrev Tₙ (c : Dev nD) : sProp 𝕄 := iprop(StableHlo.held (c : Thread nD τ) (Pipeline.ucRefs τ sig) (W4 m ρ c) ∗ ∃ r, prngReg c r)

/-! ## The two regions over the thread state -/

set_option backward.isDefEq.respectTransparency.types false in
/-- Region 0, entered from every unscoped buffer at the launch contents and left with them at W2.  Its eight
    arrays are split out of the unscoped buffers and put back at what the pipeline leaves; the register and the
    scoped buffers it stages nothing in enter its invariant — which from the first point on keeps the
    accumulator at the running sum — and come back at the end, the accumulator's contents forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    refine BIBase.Entails.trans ?_ (hin0 (V1 m ρ) c)
    unfold Pipeline.ΦA
    iintro ⟨Hg, -, Hs⟩
    isplitl [Hs]; · iexact Hs
    iexact Hg
  hout c := by
    refine (hout0 (V1 m ρ) c).trans ?_
    rw [Pipeline.ownSems0_none]; unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at W3 and left with them at W4, the last contents.  Its
    invariant is the same at every point: the register and the scoped buffers it stages nothing in. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m ρ 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m ρ 1 c).Φ (Fin.last _) = Pipeline.ΦA spec1 c from rfl]; unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

/-- Region 0, the host stretch from what region 0 leaves, region 1. -/
abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
/-- The program is the three items run in order. -/
theorem main_run (c : Dev nD) : main (F := F) c = Pipeline.Seg.run (segs m ρ) :=
  main_segs adm (pdats m ρ) () 𝒱₀ L lv (hseg hostOps1 hostOps1_sub hostOps1_fresh (W2 m ρ)) (reg0 m ρ) (reg1 m ρ) rfl c

set_option backward.isDefEq.respectTransparency.types false in
/-- THE RUN.  From any memory with zero counters, every weakly fair execution of the program on the TensorCores
    terminates, nothing faulting, and in every final state every unscoped buffer of every core holds the last
    contents W4.  The thread states chain by name: the launch deals each core its unscoped buffers at the launch
    memory, its register and nothing owed, which is region 0's entry; each item's exit state is the next one's
    entry; the last is read against the final memory buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## What the run gives -/

/-- The contents of one unscoped buffer at the end, read off the run's post. -/
theorem read_end {r : PUnit × MemSt nD τ sig (Elt F)}
    (h : ∀ c : Dev nD, ∀ b ∈ Pipeline.ucRefs τ sig, r.2.mem (((c : Thread nD τ)).1, b) = W4 m ρ c b)
    (c : Dev nD) (b : Ref sig .tc) (hb : ¬ (Proc.devRef .tc b : DevRef τ sig).isScoped) :
    r.2.mem ((c.tc : Thread nD τ).loc b) = W4 m ρ c (Proc.devRef .tc b) :=
  h c _ (mem_uc b hb)

/-- THE FRAME: the program runs (terminates, nothing faulting) and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(read_end m ρ h c main_arg0 (by decide)).trans (W4_main_arg0 m ρ c),
     (read_end m ρ h c main_arg1 (by decide)).trans (W4_main_arg1 m ρ c),
     (read_end m ρ h c main_arg2 (by decide)).trans (W4_main_arg2 m ρ c),
     (read_end m ρ h c main_arg3 (by decide)).trans (W4_main_arg3 m ρ c),
     (read_end m ρ h c main_arg4 (by decide)).trans (W4_main_arg4 m ρ c),
     (read_end m ρ h c main_arg5 (by decide)).trans (W4_main_arg5 m ρ c)⟩) (run_all m ρ)

end Cert.KernelIdeal.Hand

end
-- ==== Proof.B.R0Base.lean ====
/-
  Region 0 (the blocked product W · inputs accumulated over the second grid axis, with the neuron update at
  the last step of each row block): what the three control cases of its body share.  The grid is 4 × 8,
  point t = 8·i + k; the body resets the accumulator where k = 0, adds one 1024 × 512 by 512 × 256 product at
  every point, and writes the four results where k = 7.  Stated at a parameter V: the unscoped buffers'
  contents when the region is entered.
-/
import proofs.«139415_j41248865910902_2_alg».proof.Proof.Gen.Kernel.Launch
import proofs.«139415_j41248865910902_2_alg».proof.Proof.Gen.Kernel.Skeleton
import proofs.«139415_j41248865910902_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: unfetched, its block
    index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the first step of the row block" (k = 0): the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last step of the row block" (k = 7): the results are written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step the four results' windows are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
/-- At the last step they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The staging memrefs at a point, and the accumulator -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0 : Memref sig .tc .vmem S1024x256 .f32 := Memref.whole cc0_scratch0
/-- Views through which a result's and the accumulator's contents are stated. -/
abbrev VO0 : View sig .tc .vmem S1024x256 .f32 := (Memref.whole cc0_stg4_0 : Memref sig .tc .vmem S1024x256 .f32).view
abbrev VS0 : View sig .tc .vmem S1024x256 .f32 := scM0.view

/-- The rest the region's invariant holds — every scoped buffer that stages no window of this region, and the
    generator register — with the accumulator singled out as a memref owned at some contents. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0, owns_whole]; try rfl

end Cert.Kernel.Hand

end
-- ==== Proof.B.R0RunA.lean ====
/-
  Region 0, the first step of a row block (k = 0): the body resets the accumulator, then adds the step's
  product into it; the four results' buffers are not touched.  The pieces the accumulator ends with are
  found by running the body.
-/
import proofs.«139415_j41248865910902_2_alg».proof.Proof.B.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where k = 0, on whole staging memrefs: the inputs' at their contents, the four results' handed back
    untouched, the accumulator at anything; it ends with the accumulator's pieces `LS` written. -/
noncomputable def kernelRun0_A (c : Dev nD) (i : grid0.Coords) (arg2 : Memref sig .tc .vmem S1024x512 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x512 .f32) (x1 : Vec F S4096x256 .f32) (x2 : Vec F S1024x256 .f32) (x3 : Vec F S1024x256 .f32) :
    { LS : List (View.Piece (Elt F) S1024x256 .f32) //
      ∀ (xi4 xi5 xi6 xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, fun xi4 xi5 xi6 xi7 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Hand

end
-- ==== Proof.B.R0RunB.lean ====
/-
  Region 0, an inner step of a row block (0 < k < 7): the body adds the step's product into the accumulator,
  which holds what the step before left; the four results' buffers are not touched.
-/
import proofs.«139415_j41248865910902_2_alg».proof.Proof.B.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where 0 < k < 7, on whole staging memrefs: the inputs' at their contents, the four results' handed
    back untouched, the accumulator at the contents `xs` the step before left; it ends with the accumulator's
    pieces `LS` written. -/
noncomputable def kernelRun0_B (c : Dev nD) (i : grid0.Coords) (arg2 : Memref sig .tc .vmem S1024x512 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x512 .f32) (x1 : Vec F S4096x256 .f32) (x2 : Vec F S1024x256 .f32) (x3 : Vec F S1024x256 .f32) (xs : Vec F S1024x256 .f32) :
    { LS : List (View.Piece (Elt F) S1024x256 .f32) //
      ∀ (xi4 xi5 xi6 xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, fun xi4 xi5 xi6 xi7 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Hand

end
-- ==== Proof.B.R0RunC.lean ====
/-
  Region 0, the last step of a row block (k = 7): the body adds the step's product into the accumulator and
  then, from the finished accumulator and the row block's u and r, computes the spikes, the new potentials,
  the new refractory counters and the pseudo-derivative, storing each whole into its result's buffer.
-/
import proofs.«139415_j41248865910902_2_alg».proof.Proof.B.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The body where k = 7, on whole staging memrefs: the inputs' at their contents, the four results' at anything,
    the accumulator at the contents `xs` the step before left; it ends with each result's pieces `L4 … L7` and
    the accumulator's pieces `LS` written. -/
noncomputable def kernelRun0_C (c : Dev nD) (i : grid0.Coords) (arg2 : Memref sig .tc .vmem S1024x512 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x512 .f32) (x1 : Vec F S4096x256 .f32) (x2 : Vec F S1024x256 .f32) (x3 : Vec F S1024x256 .f32) (xs : Vec F S1024x256 .f32) :
    Σ' (L4 : List (View.Piece (Elt F) S1024x256 .f32)) (L5 : List (View.Piece (Elt F) S1024x256 .f32)) (L6 : List (View.Piece (Elt F) S1024x256 .f32)) (L7 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3
    obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact HS

end Cert.Kernel.Hand

end
-- ==== Proof.B.R0Frame.lean ====
/-
  Region 0 as one pipeline: what the accumulator and the four results' buffers hold after each grid point, by
  recursion on the point (the accumulator restarts where k = 0, otherwise continues from the point before; the
  results are written where k = 7); the region's invariant, which carries the accumulator at those contents
  from point to point; the pipeline's proof data; and the body's obligation at every point.
-/
import proofs.«139415_j41248865910902_2_alg».proof.Proof.B.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

theorem notlast_of_first (t : Fin cfg0.N) (h0 : t.val % 8 = 0) : ¬cond0_1 (grid0.coords t) :=
  fun h => by have := (hcond0_1 t).mp h; omega

/-- The run of the body at a point where k = 0, on the point's staging memrefs and blocks. -/
def runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (notlast_of_first t h0) (iblk0 V c 0 t) (iblk0 V c 1 t) (iblk0 V c 2 t) (iblk0 V c 3 t)
/-- The run where 0 < k < 7, the accumulator found at `xs`. -/
def runB (c : Dev nD) (t : Fin cfg0.N) (h0 : ¬t.val % 8 = 0) (h1 : ¬t.val % 8 = 7) (xs : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) xs
/-- The run where k = 7, the accumulator found at `xs`. -/
def runC (c : Dev nD) (t : Fin cfg0.N) (h0 : ¬t.val % 8 = 0) (h1 : t.val % 8 = 7) (xs : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) xs

/-- A buffer's contents after a list of stores that cover it: the stores read back (over anything). -/
def readBack (L : List (View.Piece (Elt F) S1024x256 .f32)) : Vec F S1024x256 .f32 :=
  VS0.read (Elt F) (VS0.writes (Elt F) VS0.junk L)

/-- In each case the accumulator's stores cover it (the last one is whole). -/
theorem scoverA (c : Dev nD) (t : Fin cfg0.N) (h0 : t.val % 8 = 0) (y : S1024x256.Idx) :
    ∃ pc ∈ (runA V c t h0).1, y ∈ pc.1.set :=
  View.cover_of_tiledL (runA V c t h0).1 S1024x256.size (by unfold runA; sl_kernel_rfl) y
theorem scoverB (c : Dev nD) (t : Fin cfg0.N) (h0 : ¬t.val % 8 = 0) (h1 : ¬t.val % 8 = 7) (xs : Vec F S1024x256 .f32) (y : S1024x256.Idx) :
    ∃ pc ∈ (runB V c t h0 h1 xs).1, y ∈ pc.1.set :=
  View.cover_of_tiledL (runB V c t h0 h1 xs).1 S1024x256.size (by unfold runB; sl_kernel_rfl) y
theorem scoverC (c : Dev nD) (t : Fin cfg0.N) (h0 : ¬t.val % 8 = 0) (h1 : t.val % 8 = 7) (xs : Vec F S1024x256 .f32) (y : S1024x256.Idx) :
    ∃ pc ∈ (runC V c t h0 h1 xs).2.2.2.2.1, y ∈ pc.1.set :=
  View.cover_of_tiledL (runC V c t h0 h1 xs).2.2.2.2.1 S1024x256.size (by unfold runC; sl_kernel_rfl) y
/-- Where k = 7 each result's one store covers its buffer. -/
theorem cover4 (c : Dev nD) (t : Fin cfg0.N) (h0 : ¬t.val % 8 = 0) (h1 : t.val % 8 = 7) (xs : Vec F S1024x256 .f32) (y : S1024x256.Idx) :
    ∃ pc ∈ (runC V c t h0 h1 xs).1, y ∈ pc.1.set :=
  View.cover_of_tiledL (runC V c t h0 h1 xs).1 S1024x256.size (by unfold runC; sl_kernel_rfl) y
theorem cover5 (c : Dev nD) (t : Fin cfg0.N) (h0 : ¬t.val % 8 = 0) (h1 : t.val % 8 = 7) (xs : Vec F S1024x256 .f32) (y : S1024x256.Idx) :
    ∃ pc ∈ (runC V c t h0 h1 xs).2.1, y ∈ pc.1.set :=
  View.cover_of_tiledL (runC V c t h0 h1 xs).2.1 S1024x256.size (by unfold runC; sl_kernel_rfl) y
theorem cover6 (c : Dev nD) (t : Fin cfg0.N) (h0 : ¬t.val % 8 = 0) (h1 : t.val % 8 = 7) (xs : Vec F S1024x256 .f32) (y : S1024x256.Idx) :
    ∃ pc ∈ (runC V c t h0 h1 xs).2.2.1, y ∈ pc.1.set :=
  View.cover_of_tiledL (runC V c t h0 h1 xs).2.2.1 S1024x256.size (by unfold runC; sl_kernel_rfl) y
theorem cover7 (c : Dev nD) (t : Fin cfg0.N) (h0 : ¬t.val % 8 = 0) (h1 : t.val % 8 = 7) (xs : Vec F S1024x256 .f32) (y : S1024x256.Idx) :
    ∃ pc ∈ (runC V c t h0 h1 xs).2.2.2.1, y ∈ pc.1.set :=
  View.cover_of_tiledL (runC V c t h0 h1 xs).2.2.2.1 S1024x256.size (by unfold runC; sl_kernel_rfl) y

/-! ## What the buffers hold after each point -/

/-- The state after a point: the four results' buffers (spikes, potentials, counters, pseudo-derivative) and the
    accumulator. Away from k = 7 the results' components are placeholders nothing consults. -/
structure St (F : FTy → Type) [FloatOps F] where
  z : Vec F S1024x256 .f32
  nu : Vec F S1024x256 .f32
  nr : Vec F S1024x256 .f32
  h : Vec F S1024x256 .f32
  acc : Vec F S1024x256 .f32

/-- THE ACCUMULATION: after point n, by recursion on n. -/
def outsAt0 (c : Dev nD) : (n : ℕ) → n < cfg0.N → St F
  | 0, hn => ⟨readBack [], readBack [], readBack [], readBack [], readBack (runA V c ⟨0, hn⟩ (Nat.zero_mod _)).1⟩
  | n + 1, hn =>
    if h0 : (n + 1) % 8 = 0 then
      ⟨readBack [], readBack [], readBack [], readBack [], readBack (runA V c ⟨n + 1, hn⟩ h0).1⟩
    else if h1 : (n + 1) % 8 = 7 then
      ⟨readBack (runC V c ⟨n + 1, hn⟩ h0 h1 (outsAt0 c n (Nat.lt_of_succ_lt hn)).acc).1,
       readBack (runC V c ⟨n + 1, hn⟩ h0 h1 (outsAt0 c n (Nat.lt_of_succ_lt hn)).acc).2.1,
       readBack (runC V c ⟨n + 1, hn⟩ h0 h1 (outsAt0 c n (Nat.lt_of_succ_lt hn)).acc).2.2.1,
       readBack (runC V c ⟨n + 1, hn⟩ h0 h1 (outsAt0 c n (Nat.lt_of_succ_lt hn)).acc).2.2.2.1,
       readBack (runC V c ⟨n + 1, hn⟩ h0 h1 (outsAt0 c n (Nat.lt_of_succ_lt hn)).acc).2.2.2.2.1⟩
    else
      ⟨readBack [], readBack [], readBack [], readBack [],
       readBack (runB V c ⟨n + 1, hn⟩ h0 h1 (outsAt0 c n (Nat.lt_of_succ_lt hn)).acc).1⟩

/-- The state the point before `t` left (for `t` not the first point). -/
def prevAt (c : Dev nD) (t : Fin cfg0.N) : St F :=
  outsAt0 V c (t.val - 1) (Nat.lt_of_le_of_lt (Nat.sub_le _ _) t.isLt)

theorem outsAt0_A (c : Dev nD) (t : Fin cfg0.N) (h0 : t.val % 8 = 0) :
    outsAt0 V c t.val t.isLt = ⟨readBack [], readBack [], readBack [], readBack [], readBack (runA V c t h0).1⟩ := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = ⟨readBack [], readBack [], readBack [], readBack [], readBack (runB V c t h0 h1 (prevAt V c t).acc).1⟩ := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt =
      ⟨readBack (runC V c t h0 h1 (prevAt V c t).acc).1, readBack (runC V c t h0 h1 (prevAt V c t).acc).2.1,
       readBack (runC V c t h0 h1 (prevAt V c t).acc).2.2.1, readBack (runC V c t h0 h1 (prevAt V c t).acc).2.2.2.1,
       readBack (runC V c t h0 h1 (prevAt V c t).acc).2.2.2.2.1⟩ := by
  obtain ⟨n, hn⟩ := t
  cases n with
  | zero => exact absurd (Nat.zero_mod _) h0
  | succ n => exact (dif_neg h0).trans ((dif_pos h1).trans rfl)

/-! ## The region's invariant -/

/-- The scoped buffers that are neither a staging buffer of this region nor the accumulator (the other region's
    staging buffers), each at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq' (c : Dev nD) :
    (Pipeline.ΦA spec0 c : sProp 𝕄) = iprop(iprop((∃ d, owns (c : Thread nD τ) scM0 fullShare d) ∗ restS0 c) ∗ (∃ r, prngReg c r)) := by
  rw [PhiA0_eq]; rfl

/-- Before point n: at the region's entry every scoped buffer at anything; afterwards the accumulator at what the
    point before left, the rest at anything. -/
def PhiS (c : Dev nD) : (n : ℕ) → n ≤ cfg0.N → sProp 𝕄
  | 0, _ => Pipeline.ΦA spec0 c
  | n + 1, hn => iprop(iprop(owns (c : Thread nD τ) scM0 fullShare (outsAt0 V c n hn).acc ∗ restS0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (outsAt0 V c n hn).acc ∗ restS0 c) ∗ (∃ r, prngReg c r)) := rfl
theorem PhiS_pos (c : Dev nD) (n : ℕ) (h : n ≤ cfg0.N) (hz : n ≠ 0) :
    PhiS V c n h = iprop(iprop(owns (c : Thread nD τ) scM0 fullShare (outsAt0 V c (n - 1) (by omega)).acc ∗ restS0 c) ∗ (∃ r, prngReg c r)) := by
  cases n with
  | zero => exact absurd rfl hz
  | succ n => rfl

/-! ## The pipeline's proof data -/

/-- The proof data of region 0 on core c: the arrays as the region finds them; after the body at point t each
    input's buffer at its block and each result's at the state's component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).z
    | ⟨5, _⟩ => (outsAt0 V c t.val t.isLt).nu
    | ⟨6, _⟩ => (outsAt0 V c t.val t.isLt).nr
    | ⟨7, _⟩ => (outsAt0 V c t.val t.isLt).h
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).z := by dsimp only [dat0]
theorem after0_5 (c : Dev nD) (t : Fin cfg0.N) : (dat0 V c).after 5 t = (outsAt0 V c t.val t.isLt).nu := by dsimp only [dat0]
theorem after0_6 (c : Dev nD) (t : Fin cfg0.N) : (dat0 V c).after 6 t = (outsAt0 V c t.val t.isLt).nr := by dsimp only [dat0]
theorem after0_7 (c : Dev nD) (t : Fin cfg0.N) : (dat0 V c).after 7 t = (outsAt0 V c t.val t.isLt).h := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t)

theorem leaves_in0 (c : Dev nD) (t : Fin cfg0.N) : (dat0 V c).leavesExact 0 t = owns (c : Thread nD τ) (ms0_0 t) fullShare (iblk0 V c 0 t) := by
  unfold Dat.leavesExact; rw [liveAt0_0 t, after0_0]
theorem leaves_in1 (c : Dev nD) (t : Fin cfg0.N) : (dat0 V c).leavesExact 1 t = owns (c : Thread nD τ) (ms0_1 t) fullShare (iblk0 V c 1 t) := by
  unfold Dat.leavesExact; rw [liveAt0_1 t, after0_1]
theorem leaves_in2 (c : Dev nD) (t : Fin cfg0.N) : (dat0 V c).leavesExact 2 t = owns (c : Thread nD τ) (ms0_2 t) fullShare (iblk0 V c 2 t) := by
  unfold Dat.leavesExact; rw [liveAt0_2 t, after0_2]
theorem leaves_in3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 8000000 in
/-- The body at any point: the inputs' buffers hold their blocks; the point's residue mod 8 says which case it
    is in; the invariant hands over the accumulator at what the point before left (at anything at the very first
    point) and takes it back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves_in0, leaves_in1, leaves_in2, leaves_in3]
  have hN : t.val < 32 := lt_of_lt_of_eq t.isLt (show cfg0.N = 32 from N_0)
  by_cases h0 : t.val % 8 = 0
  · have hc1 := notlast_of_first t h0
    rw [Dat.leavesExact_idle (dat0 V c) 4 t (idleAt0_4 t hc1) (noFlush0_4 t hc1), Dat.leavesExact_idle (dat0 V c) 5 t (idleAt0_5 t hc1) (noFlush0_5 t hc1),
      Dat.leavesExact_idle (dat0 V c) 6 t (idleAt0_6 t hc1) (noFlush0_6 t hc1), Dat.leavesExact_idle (dat0 V c) 7 t (idleAt0_7 t hc1) (noFlush0_7 t hc1)]
    rw [outsAt0_A V c t h0]
    dsimp only
    by_cases hz : t.val = 0
    · rw [PhiS_castSucc V c t, PhiS_zero V c _ _ hz, PhiA0_eq']
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0).2 _ _ _ _ Set.univ _)
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scoverA V c t h0)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0).2 _ _ _ _ Set.univ _)
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scoverA V c t h0)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7
  · have hz : t.val ≠ 0 := fun e => h0 (by rw [e])
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [show (dat0 V c).leavesExact 6 t = owns (c : Thread nD τ) (ms0_6 t) fullShare ((dat0 V c).after 6 t) from by
        unfold Dat.leavesExact; rw [liveAt0_6 t hc1], after0_6]
      rw [show (dat0 V c).leavesExact 7 t = owns (c : Thread nD τ) (ms0_7 t) fullShare ((dat0 V c).after 7 t) from by
        unfold Dat.leavesExact; rw [liveAt0_7 t hc1], after0_7]
      rw [outsAt0_C V c t h0 h1]
      dsimp only
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 (prevAt V c t).acc).2.2.2.2.2 Set.univ _)
      · isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS]; · iexact HS
        iintro ⟨H0, H1, H2, H3, ⟨%e4, H4⟩, ⟨%e5, H5⟩, ⟨%e6, H6⟩, ⟨%e7, H7⟩, ⟨%es, HS⟩⟩
        isplitl [HS Hrest Hg]
        · isplitl [HS Hrest]
          · isplitl [HS]
            · unfold owns; iexists _; isplitr
              swap; · iexact HS
              ipureintro; exact View.read_writes_of_cover _ _ _ _ _ (scoverC V c t h0 h1 _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover4 V c t h0 h1 _)
        isplitl [H5]
        · unfold owns; iexists _; isplitr
          swap; · iexact H5
          ipureintro; exact View.read_writes_of_cover _ _ _ _ _ (cover5 V c t h0 h1 _)
        isplitl [H6]
        · unfold owns; iexists _; isplitr
          swap; · iexact H6
          ipureintro; exact View.read_writes_of_cover _ _ _ _ _ (cover6 V c t h0 h1 _)
        unfold owns; iexists _; isplitr
        swap; · iexact H7
        ipureintro; exact View.read_writes_of_cover _ _ _ _ _ (cover7 V c t h0 h1 _)
    · have hc1 : ¬cond0_1 (grid0.coords t) := fun h => h1 ((hcond0_1 t).mp h)
      rw [Dat.leavesExact_idle (dat0 V c) 4 t (idleAt0_4 t hc1) (noFlush0_4 t hc1), Dat.leavesExact_idle (dat0 V c) 5 t (idleAt0_5 t hc1) (noFlush0_5 t hc1),
        Dat.leavesExact_idle (dat0 V c) 6 t (idleAt0_6 t hc1) (noFlush0_6 t hc1), Dat.leavesExact_idle (dat0 V c) 7 t (idleAt0_7 t hc1) (noFlush0_7 t hc1)]
      rw [outsAt0_B V c t h0 h1]
      dsimp only
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 (prevAt V c t).acc).2 _ _ _ _ Set.univ _)
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scoverB V c t h0 h1 _)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped rest back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl,
    PhiS_pos V c _ _ hne, PhiA0_eq']
  iintro ⟨⟨HS, Hrest⟩, Hg⟩
  isplitl [HS Hrest]
  · isplitl [HS]
    · iexists _; iexact HS
    iexact Hrest
  iexact Hg

end Cert.Kernel.Hand

end
-- ==== Proof.B.R1Frame.lean ====
/-
  Region 1 (the outer product new_e = h · new_epsᵀ, one 1024 × 1024 block per grid point): its pipeline's proof
  data and the body's obligation.  The grid is 4 × 4, point t = 4·i + j; the body reads row block i of h (its whole
  window), rows 1024·j to 1024·j + 1023 of new_eps (a slab of the window that holds the whole array, at an offset
  computed from j), and writes the product of the two, contracting the 256 axis, over the whole result block (i, j),
  which is written back at every point.  Stated at a parameter V: the unscoped buffers' contents when the region is
  entered.
-/
import proofs.«139415_j41248865910902_2_alg».proof.Proof.Gen.Kernel.Launch
import proofs.«139415_j41248865910902_2_alg».proof.Proof.Gen.Kernel.Skeleton
import proofs.«139415_j41248865910902_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: unfetched, its block
    index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of the row block of h. -/
abbrev r1_0 : Rect S1024x256 := Rect.unit (s := S1024x256) ![0, 0] S1024x256.size inb_S1024x256_S1024x256_0_0
/-- The 1024 rows of new_eps that start at row 1024·j, where j is the point's second coordinate. -/
abbrev r1_1 (i : grid1.Coords) : Rect S4096x256 := Rect.unit (s := S4096x256) (k1_off1 i) S1024x256.size (k1_off1_inb i)
/-- The whole of the result block. -/
abbrev r1_2 : Rect S1024x1024 := Rect.unit (s := S1024x1024) ![0, 0] S1024x1024.size inb_S1024x1024_S1024x1024_0_0

/-! ## What the body leaves in the result window's buffer -/

/-- The result block after the body at grid point `i`, from the two inputs' buffers: one store, of the product of the
    row block of h with the slab of new_eps, over the whole block. -/
def out1_2 (i : grid1.Coords) (x0 : Vec F S1024x256 .f32) (x1 : Vec F S4096x256 .f32) : Vec F S1024x1024 .f32 :=
  View.canon [⟨r1_2, k1_pay1 (View.ld x0 r1_0) (View.ld x1 (r1_1 i))⟩]

/-- The one store is over the whole block, so it covers it. -/
theorem cover1_2 (p0 : Vec F S1024x1024 .f32) (y : S1024x1024.Idx) :
    ∃ pc ∈ ([⟨r1_2, p0⟩] : List (View.Piece (Elt F) S1024x1024 .f32)), y ∈ pc.1.set :=
  View.cover_of_tiled [⟨r1_2, p0⟩] S1024x1024.size (by rfl) y

/-- A store over the whole block leaves its payload, and a load of a whole buffer reads its contents: the block is the
    product of the row block of h with the 1024-row slab of new_eps. -/
theorem out1_2_eq (i : grid1.Coords) (x0 : Vec F S1024x256 .f32) (x1 : Vec F S4096x256 .f32) :
    out1_2 i x0 x1 = k1_pay1 x0 (View.ld x1 (Rect.unit (s := S4096x256) (k1_off1 i) S1024x256.size (k1_off1_inb i))) := by
  unfold out1_2 r1_2 r1_0 r1_1
  rw [View.canon_unit_zero (by funext a; fin_cases a <;> rfl), View.ld_unit_zero (by funext a; fin_cases a <;> rfl)]

/-! ## The body's triple -/

set_option maxHeartbeats 1000000 in
/-- The body at grid point `i` on whole staging memrefs, the two inputs' at their contents and the result's at
    anything, runs to the continuation holding the inputs' as they were and the result's at `out1_2` of them. -/
theorem sound_kernel1 (c : Dev nD) (E : Set ℕ) (i : grid1.Coords) (arg0 : Memref sig .tc .vmem S1024x256 .f32) (harg0 : arg0.IsWhole) (arg1 : Memref sig .tc .vmem S4096x256 .f32) (harg1 : arg1.IsWhole) (arg2 : Memref sig .tc .vmem S1024x1024 .f32) (harg2 : arg2.IsWhole)
    (x0 : Vec F S1024x256 .f32) (x1 : Vec F S4096x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 i x0 x1)) -∗ K ⟨⟩))
      ⊢ wp frame (wpE (defs₀ (F := F)) Variants.none c none) E (cc1__kernel_c i arg0 harg0 arg1 harg1 arg2 harg2) K := by
  simp only [cc1__kernel_c_eq_skeleton]; unfold cc1__kernel_c_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them; after the body at point
    `t` each input's buffer at its block and the result's at `out1_2` of the two input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.B.Run.lean ====
/-
  The whole program as one run: region 0 (the blocked product with the neuron update), the host stretch that
  forms new_eps = 0.1 · eps + inputs, and region 1 (the outer product h · new_epsᵀ), one after the other from the
  launch to the return.  What every unscoped buffer holds is followed through the three items: region 0 leaves
  its four results' arrays at what its write-backs fold to and every other buffer as it found it; the host
  stretch rewrites the buffers its operations write; region 1 leaves its result's array likewise.  The run's post
  names the last of these contents for every unscoped buffer; from it, that the six argument arrays end as
  launched, and what each of the six results holds.
-/
import proofs.«139415_j41248865910902_2_alg».proof.Proof.B.R0Frame
import proofs.«139415_j41248865910902_2_alg».proof.Proof.B.R1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the unscoped buffers hold between the items -/

/-- Core c's buffers at launch. Nothing runs before region 0: these are the contents it is entered with. -/
abbrev W0 : Dev nD → Valuation τ sig (Elt F) := fun c b => (s₀ m ρ).mem ((c : Dev nD), b)
/-- Region 0's entry contents (the launch's), under the name the later boundaries continue. -/
abbrev W1 : Dev nD → Valuation τ sig (Elt F) := W0 m ρ
/-- The same read at the TensorCore's references: the contents region 0's proof data are taken at. -/
abbrev V1 : (c : Dev nD) → (b : Ref sig .tc) → Buf (Elt F) ((c : Thread nD τ).loc b) := fun c b => W0 m ρ c b
/-- After region 0: each of its eight arrays at what the pipeline leaves there (an input as entered, a result at
    its write-backs folded over the grid), every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch (region 1's entry): the constant 0.1, its broadcast, 0.1 · eps and
    new_eps = 0.1 · eps + inputs written over what region 0 left. -/
abbrev W3 : Dev nD → Valuation τ sig (Elt F) := fun c => StableHlo.after hostOps1 (W2 m ρ c)
/-- The same read at the TensorCore's references: the contents region 1's proof data are taken at. -/
abbrev V3 : (c : Dev nD) → (b : Ref sig .tc) → Buf (Elt F) ((c : Thread nD τ).loc b) := fun c b => W3 m ρ c b
/-- After region 1, the end of the run: its three arrays at what the pipeline leaves there, every other buffer
    as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretch writes -/

/-- The four buffers the host stretch writes: the constant, its broadcast, the product, and new_eps. -/
abbrev hostW : List (Ref sig .tc) := [main_cst, main_v1, main_v2, main_v3]
theorem hostOps1_writes : (hostOps1 : List (HloOp τ sig (Elt F))).Forall fun op =>
    op.writes ⊆ (hostW.map (Proc.devRef (τ := τ) .tc)).toFinset := by
  simp only [List.Forall]
  refine ⟨?_, ?_, ?_, ?_⟩ <;>
    (simp only [StableHlo.nullary_writes, StableHlo.unary_writes, StableHlo.binary_writes, Finset.singleton_subset_iff, List.mem_toFinset]
     exact List.mem_map_of_mem (by decide))
/-- Any other buffer is after the host stretch what it was before. -/
theorem W3_of_ne (c : Dev nD) (b : Ref sig .tc) (hb : b ∉ hostW) :
    W3 m ρ c (Proc.devRef .tc b) = W2 m ρ c (Proc.devRef .tc b) :=
  StableHlo.after_of_writes_sub hostOps1 _ hostOps1_writes hb
/-- No operation of the host stretch allocates a buffer. -/
theorem hostOps1_fresh : (hostOps1 : List (HloOp τ sig (Elt F))).Forall fun op => op.fresh = ∅ := by
  simp only [List.Forall]; repeat' constructor

/-! ## The arguments end as launched

No item writes an argument: region 0 reads main_arg1, main_arg0, main_arg2, main_arg3 through its input windows
0 to 3 (an input's array is left as entered) and does not touch main_arg4, main_arg5; the host stretch writes
none of the six; region 1 touches none of them. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W0 m ρ c (Proc.devRef .tc main_arg0) := (W2_arr m ρ c 1).trans (((dat0 (V1 m ρ) c).arrAt_in 1 rfl _).trans (A_eq0 (V1 m ρ) c 1))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W0 m ρ c (Proc.devRef .tc main_arg1) := (W2_arr m ρ c 0).trans (((dat0 (V1 m ρ) c).arrAt_in 0 rfl _).trans (A_eq0 (V1 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W0 m ρ c (Proc.devRef .tc main_arg2) := (W2_arr m ρ c 2).trans (((dat0 (V1 m ρ) c).arrAt_in 2 rfl _).trans (A_eq0 (V1 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W0 m ρ c (Proc.devRef .tc main_arg3) := (W2_arr m ρ c 3).trans (((dat0 (V1 m ρ) c).arrAt_in 3 rfl _).trans (A_eq0 (V1 m ρ) c 3))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W0 m ρ c (Proc.devRef .tc main_arg4) := W2_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W0 m ρ c (Proc.devRef .tc main_arg5) := W2_of_ne m ρ c main_arg5 (by decide)
    _ = m ((c : Thread nD τ).loc main_arg5) := rfl

/-! ## What the results hold at the end

The spikes, potentials and counters (main_v0_0, main_v0_1, main_v0_2) are region 0's result windows 4, 5, 6; nothing
after region 0 touches them.  The pseudo-derivative h (main_v0_3) is its window 7; region 1 reads it through its input
window 0, which leaves it as entered.  new_eps (main_v3) is the host stretch's; region 1 reads it through its input
window 1.  new_e (main_v4) is region 1's result window 2. -/

theorem W4_main_v0_0 (c : Dev nD) : W4 m ρ c (Proc.devRef .tc main_v0_0) = (dat0 (V1 m ρ) c).arrAt 4 cfg0.N :=
  calc W4 m ρ c (Proc.devRef .tc main_v0_0)
    _ = W3 m ρ c (Proc.devRef .tc main_v0_0) := W4_of_ne m ρ c main_v0_0 (by decide)
    _ = W2 m ρ c (Proc.devRef .tc main_v0_0) := W3_of_ne m ρ c main_v0_0 (by decide)
    _ = (dat0 (V1 m ρ) c).arrAt 4 cfg0.N := W2_arr m ρ c 4
theorem W4_main_v0_1 (c : Dev nD) : W4 m ρ c (Proc.devRef .tc main_v0_1) = (dat0 (V1 m ρ) c).arrAt 5 cfg0.N :=
  calc W4 m ρ c (Proc.devRef .tc main_v0_1)
    _ = W3 m ρ c (Proc.devRef .tc main_v0_1) := W4_of_ne m ρ c main_v0_1 (by decide)
    _ = W2 m ρ c (Proc.devRef .tc main_v0_1) := W3_of_ne m ρ c main_v0_1 (by decide)
    _ = (dat0 (V1 m ρ) c).arrAt 5 cfg0.N := W2_arr m ρ c 5
theorem W4_main_v0_2 (c : Dev nD) : W4 m ρ c (Proc.devRef .tc main_v0_2) = (dat0 (V1 m ρ) c).arrAt 6 cfg0.N :=
  calc W4 m ρ c (Proc.devRef .tc main_v0_2)
    _ = W3 m ρ c (Proc.devRef .tc main_v0_2) := W4_of_ne m ρ c main_v0_2 (by decide)
    _ = W2 m ρ c (Proc.devRef .tc main_v0_2) := W3_of_ne m ρ c main_v0_2 (by decide)
    _ = (dat0 (V1 m ρ) c).arrAt 6 cfg0.N := W2_arr m ρ c 6
/-- h as region 1 finds it is what region 0 left. -/
theorem V3_main_v0_3 (c : Dev nD) : V3 m ρ c main_v0_3 = (dat0 (V1 m ρ) c).arrAt 7 cfg0.N :=
  (W3_of_ne m ρ c main_v0_3 (by decide)).trans (W2_arr m ρ c 7)
theorem W4_main_v0_3 (c : Dev nD) : W4 m ρ c (Proc.devRef .tc main_v0_3) = (dat0 (V1 m ρ) c).arrAt 7 cfg0.N :=
  calc W4 m ρ c (Proc.devRef .tc main_v0_3)
    _ = W3 m ρ c (Proc.devRef .tc main_v0_3) := (W4_arr m ρ c 0).trans (((dat1 (V3 m ρ) c).arrAt_in 0 rfl _).trans (A_eq1 (V3 m ρ) c 0))
    _ = (dat0 (V1 m ρ) c).arrAt 7 cfg0.N := V3_main_v0_3 m ρ c
theorem W4_main_v3 (c : Dev nD) : W4 m ρ c (Proc.devRef .tc main_v3) = W3 m ρ c (Proc.devRef .tc main_v3) :=
  (W4_arr m ρ c 1).trans (((dat1 (V3 m ρ) c).arrAt_in 1 rfl _).trans (A_eq1 (V3 m ρ) c 1))
theorem W4_main_v4 (c : Dev nD) : W4 m ρ c (Proc.devRef .tc main_v4) = (dat1 (V3 m ρ) c).arrAt 2 cfg1.N :=
  W4_arr m ρ c 2

/-! ## The proof data family and the thread state -/

/-- Neither region has a prefetched table. -/
abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A host stretch over the unscoped buffers from the contents W, the register and the dues beside it; it ends
    with the buffers at what the operations, in order, make of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the dues apart: every unscoped buffer at the last contents, the register at some state. -/
abbrev Tₙ (c : Dev nD) : sProp 𝕄 := iprop(StableHlo.held (c : Thread nD τ) (Pipeline.ucRefs τ sig) (W4 m ρ c) ∗ ∃ r, prngReg c r)

/-! ## The two regions over the thread state -/

set_option backward.isDefEq.respectTransparency.types false in
/-- Region 0, entered from every unscoped buffer at the launch contents and left with them at W2.  Its eight
    arrays are split out of the unscoped buffers and put back at what the pipeline leaves; the register and the
    scoped buffers it stages nothing in enter its invariant — which from the first point on keeps the
    accumulator at the running sum — and come back at the end, the accumulator's contents forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    refine BIBase.Entails.trans ?_ (hin0 (V1 m ρ) c)
    unfold Pipeline.ΦA
    iintro ⟨Hg, -, Hs⟩
    isplitl [Hs]; · iexact Hs
    iexact Hg
  hout c := by
    refine (hout0 (V1 m ρ) c).trans ?_
    rw [Pipeline.ownSems0_none]; unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at W3 and left with them at W4, the last contents.  Its
    invariant is the same at every point: the register and the scoped buffers it stages nothing in. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m ρ 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m ρ 1 c).Φ (Fin.last _) = Pipeline.ΦA spec1 c from rfl]; unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

/-- Region 0, the host stretch from what region 0 leaves, region 1. -/
abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
/-- The program is the three items run in order. -/
theorem main_run (c : Dev nD) : main (F := F) c = Pipeline.Seg.run (segs m ρ) :=
  main_segs adm (pdats m ρ) () 𝒱₀ L lv (hseg hostOps1 hostOps1_sub hostOps1_fresh (W2 m ρ)) (reg0 m ρ) (reg1 m ρ) rfl c

set_option backward.isDefEq.respectTransparency.types false in
/-- THE RUN.  From any memory with zero counters, every weakly fair execution of the program on the TensorCores
    terminates, nothing faulting, and in every final state every unscoped buffer of every core holds the last
    contents W4.  The thread states chain by name: the launch deals each core its unscoped buffers at the launch
    memory, its register and nothing owed, which is region 0's entry; each item's exit state is the next one's
    entry; the last is read against the final memory buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## What the run gives -/

/-- The contents of one unscoped buffer at the end, read off the run's post. -/
theorem read_end {r : PUnit × MemSt nD τ sig (Elt F)}
    (h : ∀ c : Dev nD, ∀ b ∈ Pipeline.ucRefs τ sig, r.2.mem (((c : Thread nD τ)).1, b) = W4 m ρ c b)
    (c : Dev nD) (b : Ref sig .tc) (hb : ¬ (Proc.devRef .tc b : DevRef τ sig).isScoped) :
    r.2.mem ((c.tc : Thread nD τ).loc b) = W4 m ρ c (Proc.devRef .tc b) :=
  h c _ (mem_uc b hb)

/-- THE FRAME: the program runs (terminates, nothing faulting) and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(read_end m ρ h c main_arg0 (by decide)).trans (W4_main_arg0 m ρ c),
     (read_end m ρ h c main_arg1 (by decide)).trans (W4_main_arg1 m ρ c),
     (read_end m ρ h c main_arg2 (by decide)).trans (W4_main_arg2 m ρ c),
     (read_end m ρ h c main_arg3 (by decide)).trans (W4_main_arg3 m ρ c),
     (read_end m ρ h c main_arg4 (by decide)).trans (W4_main_arg4 m ρ c),
     (read_end m ρ h c main_arg5 (by decide)).trans (W4_main_arg5 m ρ c)⟩) (run_all m ρ)

end Cert.Kernel.Hand

end
-- ==== Proof.Frames.lean ====
/-
  The three frame claims: each program runs (every weakly fair execution terminates, nothing faulting) and its
  six argument arrays end as launched.  The kernel's, at the word-level floats and at the ideal ones, is the run of
  its three items (region 0, the host stretch, region 1), proved once for any float type and read at the two
  instances.  The reference's is its run read back with the six results dropped.
-/
import proofs.«139415_j41248865910902_2_alg».proof.Defs
import proofs.«139415_j41248865910902_2_alg».proof.Proof.I.Run
import proofs.«139415_j41248865910902_2_alg».proof.Proof.B.Run
import proofs.«139415_j41248865910902_2_alg».proof.Proof.Gen.ReferenceIdeal.Run
import proofs.«139415_j41248865910902_2_alg».proof.Proof.Gen.Pre_finite_inputs

noncomputable section

namespace Cert.Proof.Frames

open Idealize.ShloMosaic Idealize.SL.Sem

/-- The kernel at the word-level floats. -/
theorem frame_p : Cert.frame_Kernel := fun m ρ _ => Cert.Kernel.Hand.frame m ρ

/-- The kernel at the ideal floats. -/
theorem frame_pi : Cert.frame_KernelIdeal := fun m ρ _ => Cert.KernelIdeal.Hand.frame m ρ

/-- The reference at the ideal floats: of its run's twelve conjuncts (six results, then six arguments) the last six. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

end Cert.Proof.Frames

end
-- ==== Proof.Val.R0Pieces.lean ====
/-
  Region 0: the stores each case of the body makes, read back as values.  At every point the accumulator ends
  at (what it held, or zero where k = 0) plus the product of the point's W block with the 512 rows of the
  inputs that the step contracts over; where k = 7 the four results are the neuron update applied to that
  finished accumulator and the row block's u and r.
-/
import proofs.«139415_j41248865910902_2_alg».proof.Proof.I.R0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- The 512 rows of the inputs array that step k = t mod 8 contracts over, as the body loads them. -/
def xslab (c : Dev nD) (t : Fin cfg0.N) : Vec F S512x256 .f32 :=
  View.ld (iblk0 V c 1 t : Vec F S4096x256 .f32) (Rect.unit (s := S4096x256) (k0_off1 (grid0.coords t)) S512x256.size (k0_off1_inb (grid0.coords t)))

/-- The accumulator after one step from contents `xs`. -/
def stepAcc (c : Dev nD) (t : Fin cfg0.N) (xs : Vec F S1024x256 .f32) : Vec F S1024x256 .f32 :=
  k0_pay2 (iblk0 V c 0 t : Vec F S1024x512 .f32) (xslab V c t) xs

theorem accB (c : Dev nD) (t : Fin cfg0.N) (h0 : ¬t.val % 8 = 0) (h1 : ¬t.val % 8 = 7) (xs : Vec F S1024x256 .f32) :
    readBack (runB V c t h0 h1 xs).1 = stepAcc V c t xs := by
  unfold readBack
  rw [View.read_writes_eq_canon _ _ _ (scoverB V c t h0 h1 xs)]
  unfold runB kernelRun0_B
  dsimp only
  rw [View.canon_unit_zero hz2]
  unfold stepAcc xslab
  simp only [View.readAt_eq_ld, (hs0_0 t).read_unread, (hs0_1 t).read_unread, (Memref.isWhole_whole cc0_scratch0).read_unread,
    View.ld_unit_zero (S := S1024x256) hz2, View.ld_unit_zero (S := S1024x512) hz2]
  rfl

theorem accA (c : Dev nD) (t : Fin cfg0.N) (h0 : t.val % 8 = 0) :
    readBack (runA V c t h0).1 = stepAcc V c t k0_pay1 := by
  unfold readBack
  rw [View.read_writes_eq_canon _ _ _ (scoverA V c t h0)]
  unfold runA kernelRun0_A
  dsimp only
  sl_unfold_run_names
  rw [View.canon_cons_unit_zero (S := S1024x256) hz2, View.readCov_unit_zero (S := S1024x256) _ hz2]
  unfold stepAcc xslab
  simp only [View.readAt_eq_ld, (hs0_0 t).read_unread, (hs0_1 t).read_unread,
    View.ld_unit_zero (S := S1024x256) hz2, View.ld_unit_zero (S := S1024x512) hz2]
  rfl

theorem accC (c : Dev nD) (t : Fin cfg0.N) (h0 : ¬t.val % 8 = 0) (h1 : t.val % 8 = 7) (xs : Vec F S1024x256 .f32) :
    readBack (runC V c t h0 h1 xs).2.2.2.2.1 = stepAcc V c t xs := by
  unfold readBack
  rw [View.read_writes_eq_canon _ _ _ (scoverC V c t h0 h1 xs)]
  unfold runC kernelRun0_C
  dsimp only
  sl_unfold_run_names
  rw [View.canon_unit_zero hz2]
  unfold stepAcc xslab
  simp only [View.readAt_eq_ld, (hs0_0 t).read_unread, (hs0_1 t).read_unread, (Memref.isWhole_whole cc0_scratch0).read_unread,
    View.ld_unit_zero (S := S1024x256) hz2, View.ld_unit_zero (S := S1024x512) hz2]
  rfl

theorem zC (c : Dev nD) (t : Fin cfg0.N) (h0 : ¬t.val % 8 = 0) (h1 : t.val % 8 = 7) (xs : Vec F S1024x256 .f32) :
    readBack (runC V c t h0 h1 xs).1 = k0_pay8 (stepAcc V c t xs) (iblk0 V c 2 t : Vec F S1024x256 .f32) (iblk0 V c 3 t : Vec F S1024x256 .f32) := by
  unfold readBack
  rw [View.read_writes_eq_canon _ _ _ (cover4 V c t h0 h1 xs)]
  unfold runC kernelRun0_C
  dsimp only
  sl_unfold_run_names
  rw [View.canon_unit_zero hz2, View.readCov_unit_zero (S := S1024x256) _ hz2]
  unfold stepAcc xslab
  simp only [View.readAt_eq_ld, (hs0_0 t).read_unread, (hs0_1 t).read_unread, (hs0_2 t).read_unread, (hs0_3 t).read_unread, (Memref.isWhole_whole cc0_scratch0).read_unread,
    View.ld_unit_zero (S := S1024x256) hz2, View.ld_unit_zero (S := S1024x512) hz2]
  rfl

theorem nuC (c : Dev nD) (t : Fin cfg0.N) (h0 : ¬t.val % 8 = 0) (h1 : t.val % 8 = 7) (xs : Vec F S1024x256 .f32) :
    readBack (runC V c t h0 h1 xs).2.1 = k0_pay6 (stepAcc V c t xs) (iblk0 V c 2 t : Vec F S1024x256 .f32) (iblk0 V c 3 t : Vec F S1024x256 .f32) := by
  unfold readBack
  rw [View.read_writes_eq_canon _ _ _ (cover5 V c t h0 h1 xs)]
  unfold runC kernelRun0_C
  dsimp only
  sl_unfold_run_names
  rw [View.canon_unit_zero hz2, View.readCov_unit_zero (S := S1024x256) _ hz2]
  unfold stepAcc xslab
  simp only [View.readAt_eq_ld, (hs0_0 t).read_unread, (hs0_1 t).read_unread, (hs0_2 t).read_unread, (hs0_3 t).read_unread, (Memref.isWhole_whole cc0_scratch0).read_unread,
    View.ld_unit_zero (S := S1024x256) hz2, View.ld_unit_zero (S := S1024x512) hz2]
  rfl

theorem nrC (c : Dev nD) (t : Fin cfg0.N) (h0 : ¬t.val % 8 = 0) (h1 : t.val % 8 = 7) (xs : Vec F S1024x256 .f32) :
    readBack (runC V c t h0 h1 xs).2.2.1 = k0_pay7 (stepAcc V c t xs) (iblk0 V c 2 t : Vec F S1024x256 .f32) (iblk0 V c 3 t : Vec F S1024x256 .f32) := by
  unfold readBack
  rw [View.read_writes_eq_canon _ _ _ (cover6 V c t h0 h1 xs)]
  unfold runC kernelRun0_C
  dsimp only
  sl_unfold_run_names
  rw [View.canon_unit_zero hz2, View.readCov_unit_zero (S := S1024x256) _ hz2]
  unfold stepAcc xslab
  simp only [View.readAt_eq_ld, (hs0_0 t).read_unread, (hs0_1 t).read_unread, (hs0_2 t).read_unread, (hs0_3 t).read_unread, (Memref.isWhole_whole cc0_scratch0).read_unread,
    View.ld_unit_zero (S := S1024x256) hz2, View.ld_unit_zero (S := S1024x512) hz2]
  rfl

theorem hC (c : Dev nD) (t : Fin cfg0.N) (h0 : ¬t.val % 8 = 0) (h1 : t.val % 8 = 7) (xs : Vec F S1024x256 .f32) :
    readBack (runC V c t h0 h1 xs).2.2.2.1 = k0_pay9 (stepAcc V c t xs) (iblk0 V c 2 t : Vec F S1024x256 .f32) (iblk0 V c 3 t : Vec F S1024x256 .f32) := by
  unfold readBack
  rw [View.read_writes_eq_canon _ _ _ (cover7 V c t h0 h1 xs)]
  unfold runC kernelRun0_C
  dsimp only
  sl_unfold_run_names
  rw [View.canon_unit_zero hz2, View.readCov_unit_zero (S := S1024x256) _ hz2]
  unfold stepAcc xslab
  simp only [View.readAt_eq_ld, (hs0_0 t).read_unread, (hs0_1 t).read_unread, (hs0_2 t).read_unread, (hs0_3 t).read_unread, (Memref.isWhole_whole cc0_scratch0).read_unread,
    View.ld_unit_zero (S := S1024x256) hz2, View.ld_unit_zero (S := S1024x512) hz2]
  rfl

end Cert.KernelIdeal.Hand

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibMatmulRowsRows.lean ====
/-
  A `tpu.matmul` of two rank-2 operands into the zero accumulator, read at ONE ENTRY of its result at the ideal
  values, for the layout an outer product of two row-major factors meets:

  * `matmul_rows_rows`: `[M, K] × [N, K] → [M, N]`, contracting axis 1 of BOTH operands (rows times rows, the
    right operand read transposed): entry `(p, q)` is `Σ_k a[p, k] · b[q, k]`.

  Stated for ANY dimension-number record with those six lists, whatever its name and well-formedness proof, and for
  any extents and operand formats.  The contraction's own index type is re-indexed to `Fin K` through its one
  coordinate; on each operand's kept axis the operand's index is the result index's coordinate.
-/
import Idealize.ShloMosaic.PureOps.Ideal.Laws
import Idealize.ShloMosaic.Lib.ValueIdx
import proofs.«139415_j41248865910902_2_alg».proof.Proof.LibMatmulEntry

noncomputable section

open scoped BigOperators

namespace Idealize.ShloMosaic.Ideal

open Idealize.ShloMosaic.ValueIdx

/-- Rows times rows: `[M, K] × [N, K] → [M, N]`, the second axis of both operands contracted, into the zero
    accumulator: entry `(p, q)` is `Σ_k a[p, k] · b[q, k]`.  The left operand's kept axis is the result's first, the
    right operand's kept axis the result's second; the contraction's index is re-indexed to `Fin K` through its one
    coordinate. -/
theorem matmul_rows_rows {M K N : Nat} {φ₁ φ₂ : FTy} (D : DotDims ⟨2, ![M, K]⟩ ⟨2, ![N, K]⟩ ⟨2, ![M, N]⟩)
    (hlb : D.lhsBatch = []) (hln : D.lhsNonContracting = [0]) (hlc : D.lhsContracting = [1])
    (hrb : D.rhsBatch = []) (hrn : D.rhsNonContracting = [0]) (hrc : D.rhsContracting = [1])
    (prec : Option ContractPrecision) (a : FVec Ideal ⟨2, ![M, K]⟩ φ₁) (b : FVec Ideal ⟨2, ![N, K]⟩ φ₂)
    (p : Fin M) (q : Fin N) :
    FloatOps.matmul D prec a b (constant ⟨2, ![M, N]⟩ .f32 0x00000000#32) (ix2 p q)
      = ∑ k : Fin K, a (ix2 p k) * b (ix2 q k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [Ideal.matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 q k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.Val.Matmul.lean ====
/-
  The kernel's three accumulator payloads read at one entry, at the ideal values: the zero fill of the accumulator, one
  step of the blocked product W · inputs added into it (rows of a 1024 × 512 block of W times columns of a 512 × 256
  slab of the inputs), and the outer product h · new_epsᵀ (rows of a block of h times rows of a slab of new_eps, the
  256 axis of both contracted).  Each is a plain sum over the contracted coordinate; the identity shape casts and the
  narrowing of the operands to a shorter format change nothing at the ideal values.
-/
import proofs.«139415_j41248865910902_2_alg».proof.Proof.Gen.KernelIdeal.Skeleton
import Idealize.ShloMosaic.PureOps.Ideal.Laws
import Idealize.ShloMosaic.Lib.ValueIdx
import Idealize.ShloMosaic.Lib.Pipeline.Value
import proofs.«139415_j41248865910902_2_alg».proof.Proof.LibMatmulEntry
import proofs.«139415_j41248865910902_2_alg».proof.Proof.LibMatmulRowsRows

noncomputable section

open scoped BigOperators

namespace Cert.KernelIdeal.Val

open Idealize.ShloMosaic Idealize.ShloMosaic.ValueIdx Idealize.SL.Sem
open Cert.KernelIdeal Cert.KernelIdeal.Gen

/-- The accumulator's reset value: zero at every entry. -/
theorem k0_pay1_apply (j : S1024x256.Idx) : k0_pay1 (F := Ideal) j = 0 := by
  unfold k0_pay1
  simp only [shapeCast_self]
  exact Ideal.ofBits_zero_f32

/-- One step of the blocked product: the accumulator's entry plus the 512-term sum of the step's row of W times its
    column of the inputs. -/
theorem k0_pay2_apply (v5 : Vec Ideal S1024x512 .f32) (v7 : Vec Ideal S512x256 .f32) (v8 : Vec Ideal S1024x256 .f32)
    (p : Fin 1024) (q : Fin 256) :
    k0_pay2 v5 v7 v8 (ValueIdx.ix2 p q) = v8 (ValueIdx.ix2 p q) + ∑ k : Fin 512, v5 (ValueIdx.ix2 p k) * v7 (ValueIdx.ix2 k q) := by
  unfold k0_pay2
  simp only [shapeCast_self]
  refine (addf_apply _ _ _).trans ?_
  refine congrArg (v8 (ValueIdx.ix2 p q) + ·) ?_
  exact Ideal.matmul_rows_cols dot_S1024x512_S512x256_S1024x256_1_0_0_1_n_n rfl rfl rfl rfl rfl rfl (some .fp32) v5 v7 p q

/-- The outer product's entry: the 256-term sum of a row of h times a row of new_eps. -/
theorem k1_pay1_apply (v2 v6 : Vec Ideal S1024x256 .f32) (p q : Fin 1024) :
    k1_pay1 v2 v6 (ValueIdx.ix2 p q) = ∑ b : Fin 256, v2 (ValueIdx.ix2 p b) * v6 (ValueIdx.ix2 q b) := by
  unfold k1_pay1
  simp only [shapeCast_self]
  exact Ideal.matmul_rows_rows dot_S1024x256_S1024x256_S1024x1024_1_1_0_0_n_n rfl rfl rfl rfl rfl rfl none
    (truncf .bf16 v2 bitsLt_bf16_f32) (truncf .bf16 v6 bitsLt_bf16_f32) p q

end Cert.KernelIdeal.Val

end
-- ==== Proof.Val.Args.lean ====
/-
  The region-entry contents of the four argument arrays the first region reads, and of eps, under names that
  carry their shapes (so that their entries multiply and add as extended reals).
-/
import proofs.«139415_j41248865910902_2_alg».proof.Proof.I.R0Frame
import Idealize.ShloMosaic.PureOps.Ideal
import Idealize.ShloMosaic.PureOps.Ideal.Laws
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-- The inputs X [4096, 256]. -/
abbrev Xarr (c : Dev nD) : Vec Ideal S4096x256 .f32 := V c main_arg0
/-- The weights W [4096, 4096]. -/
abbrev Warr (c : Dev nD) : Vec Ideal S4096x4096 .f32 := V c main_arg1
/-- The potentials u [4096, 256]. -/
abbrev Uarr (c : Dev nD) : Vec Ideal S4096x256 .f32 := V c main_arg2
/-- The refractory counters r [4096, 256]. -/
abbrev Rarr (c : Dev nD) : Vec Ideal S4096x256 .f32 := V c main_arg3
/-- The input traces eps [4096, 256]. -/
abbrev EPSarr (c : Dev nD) : Vec Ideal S4096x256 .f32 := V c main_arg5

/-- The matrix product's entry (n, b): row n of W against column b of the inputs. -/
def cur (c : Dev nD) (n : Fin 4096) (b : Fin 256) : EReal :=
  ∑ k : Fin 4096, Warr V c (ValueIdx.ix2 n k) * Xarr V c (ValueIdx.ix2 k b)

end Cert.KernelIdeal.Val

end
-- ==== Proof.Val.R0Acc.lean ====
/-
  Region 0's accumulator in closed form.  The grid point t = 8·i + k works on row block i of W (rows 1024·i …)
  and on the k-th slab of 512 columns of W and 512 rows of the inputs.  Where k = 0 the accumulator restarts from
  zero; at every point it gains, at entry (p, q), the 512 products W (1024·i + p, 512·k + j) · X (512·k + j, q).  So after
  point t the entry holds the partial sum of the first 512·(k + 1) terms of the row-by-column product, and after the
  last step of the row block (k = 7) the whole 4096-term sum: entry (1024·i + p, q) of W · X.  Sums of extended reals
  are sums in a commutative monoid, so splitting the 4096 terms into eight consecutive runs needs no finiteness.
-/
import proofs.«139415_j41248865910902_2_alg».proof.Proof.Val.R0Pieces
import proofs.«139415_j41248865910902_2_alg».proof.Proof.Val.Matmul
import proofs.«139415_j41248865910902_2_alg».proof.Proof.Val.Args

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

/-! ## Where a point's blocks sit in the arrays -/

/-- Over the 32 points: W's block index is (t / 8, t mod 8), the inputs are staged whole (block index (0, 0)), and
    the step's slab of the inputs starts at row 512 · (t mod 8), column 0. -/
theorem idx_facts : ∀ t : Fin cfg0.N,
    win0_0.index t 0 = t.val / 8 ∧ win0_0.index t 1 = t.val % 8 ∧ win0_1.index t 0 = 0 ∧ win0_1.index t 1 = 0
      ∧ k0_off1 (grid0.coords t) 0 = 512 * (t.val % 8) ∧ k0_off1 (grid0.coords t) 1 = 0 :=
  (by decide +kernel : ∀ t : Fin grid0.N,
    win0_0.index t 0 = t.val / 8 ∧ win0_0.index t 1 = t.val % 8 ∧ win0_1.index t 0 = 0 ∧ win0_1.index t 1 = 0
      ∧ k0_off1 (grid0.coords t) 0 = 512 * (t.val % 8) ∧ k0_off1 (grid0.coords t) 1 = 0)

/-- Entry (p, kk) of the point's block of W is W's entry (1024 · (t / 8) + p, 512 · (t mod 8) + kk). -/
theorem wblock_apply (c : Dev nD) (t : Fin cfg0.N) (p : Fin 1024) (kk : Fin 512) (r kc : Fin 4096)
    (hr : r.val = 1024 * (t.val / 8) + p.val) (hk : kc.val = 512 * (t.val % 8) + kk.val) :
    (iblk0 V c 0 t : Vec Ideal S1024x512 .f32) (ix2 p kk) = V c main_arg1 (ix2 r kc) := by
  have hi := idx_facts t
  unfold iblk0
  rw [View.read_apply]
  show V c main_arg1 _ = V c main_arg1 _
  refine congrArg (V c main_arg1) (funext fun a => Fin.ext ?_)
  match a with
  | ⟨0, _⟩ => show win0_0.index t 0 * 1024 + 1 * p.val = r.val; rw [hi.1, hr]; omega
  | ⟨1, _⟩ => show win0_0.index t 1 * 512 + 1 * kk.val = kc.val; rw [hi.2.1, hk]; omega

/-- Entry (kk, q) of the step's slab of the inputs is the inputs' entry (512 · (t mod 8) + kk, q). -/
theorem xslab_apply (c : Dev nD) (t : Fin cfg0.N) (kk : Fin 512) (q : Fin 256) (kc : Fin 4096)
    (hk : kc.val = 512 * (t.val % 8) + kk.val) :
    xslab V c t (ix2 kk q) = V c main_arg0 (ix2 kc q) := by
  have hi := idx_facts t
  unfold xslab iblk0
  show V c main_arg0 _ = V c main_arg0 _
  refine congrArg (V c main_arg0) (funext fun a => Fin.ext ?_)
  match a with
  | ⟨0, _⟩ =>
    show win0_1.index t 0 * 4096 + 1 * (k0_off1 (grid0.coords t) 0 + 1 * kk.val) = kc.val
    rw [hi.2.2.1, hi.2.2.2.2.1, hk]; omega
  | ⟨1, _⟩ =>
    show win0_1.index t 1 * 256 + 1 * (k0_off1 (grid0.coords t) 1 + 1 * q.val) = q.val
    rw [hi.2.2.2.1, hi.2.2.2.2.2]; omega

/-! ## The terms of one entry's sum, numbered by naturals -/

/-- Term j of entry (r, q) of W · X: W (r, j) · X (j, q) for j below 4096 (and zero beyond, never summed). -/
def prodTerm (W : S4096x4096.Idx → EReal) (X : S4096x256.Idx → EReal) (r : Fin 4096) (q : Fin 256) (j : ℕ) : EReal :=
  if h : j < 4096 then W (ix2 r ⟨j, h⟩) * X (ix2 ⟨j, h⟩ q) else 0

/-- One step at an entry: what the accumulator held plus the step's 512 consecutive terms. -/
theorem stepAcc_apply (c : Dev nD) (t : Fin cfg0.N) (xs : Vec Ideal S1024x256 .f32) (p : Fin 1024) (q : Fin 256) (r : Fin 4096)
    (hr : r.val = 1024 * (t.val / 8) + p.val) :
    stepAcc V c t xs (ix2 p q)
      = xs (ix2 p q) + ∑ j ∈ Finset.range 512, prodTerm (V c main_arg1) (V c main_arg0) r q (512 * (t.val % 8) + j) := by
  unfold stepAcc
  refine (k0_pay2_apply _ _ _ p q).trans ?_
  refine congrArg (xs (ix2 p q) + ·) ?_
  rw [← Fin.sum_univ_eq_sum_range (fun j => prodTerm (V c main_arg1) (V c main_arg0) r q (512 * (t.val % 8) + j)) 512]
  refine Finset.sum_congr rfl fun k _ => ?_
  have hk : 512 * (t.val % 8) + k.val < 4096 := by have := k.isLt; omega
  rw [wblock_apply V c t p k r ⟨512 * (t.val % 8) + k.val, hk⟩ hr rfl, xslab_apply V c t k q ⟨512 * (t.val % 8) + k.val, hk⟩ rfl]
  unfold prodTerm
  rw [dif_pos hk]

/-! ## The accumulator after each point -/

/-- The accumulator component of a state given by its five components. -/
theorem acc_of_eq (s : St Ideal) (z nu nr h acc : Vec Ideal S1024x256 .f32) (hs : s = ⟨z, nu, nr, h, acc⟩) : s.acc = acc := by
  subst hs; rfl

/-- Where k = 0 the point's accumulator is one step from zero … -/
theorem acc_first (c : Dev nD) (t : Fin cfg0.N) (h0 : t.val % 8 = 0) :
    (outsAt0 V c t.val t.isLt).acc = stepAcc V c t (k0_pay1 (F := Ideal)) :=
  (acc_of_eq _ _ _ _ _ _ (outsAt0_A V c t h0)).trans (accA V c t h0)

/-- … and elsewhere one step from what the point before left. -/
theorem acc_next (c : Dev nD) (t : Fin cfg0.N) (h0 : ¬t.val % 8 = 0) :
    (outsAt0 V c t.val t.isLt).acc = stepAcc V c t (prevAt V c t).acc := by
  by_cases h1 : t.val % 8 = 7
  · exact (acc_of_eq _ _ _ _ _ _ (outsAt0_C V c t h0 h1)).trans (accC V c t h0 h1 (prevAt V c t).acc)
  · exact (acc_of_eq _ _ _ _ _ _ (outsAt0_B V c t h0 h1)).trans (accB V c t h0 h1 (prevAt V c t).acc)

/-- After point n (row block n / 8, step n mod 8) entry (p, q) of the accumulator is the sum of the first
    512 · (n mod 8 + 1) terms of entry (1024 · (n / 8) + p, q) of W · X: by induction on the point. -/
theorem acc_partial (c : Dev nD) (n : ℕ) : ∀ (t : Fin cfg0.N), t.val = n → ∀ (p : Fin 1024) (q : Fin 256) (r : Fin 4096),
    r.val = 1024 * (n / 8) + p.val →
    (outsAt0 V c t.val t.isLt).acc (ix2 p q)
      = ∑ j ∈ Finset.range (512 * (n % 8 + 1)), prodTerm (V c main_arg1) (V c main_arg0) r q j := by
  have hN : cfg0.N = 32 := N_0
  induction n with
  | zero =>
    intro t ht p q r hr
    have h0 : t.val % 8 = 0 := by rw [ht]
    rw [acc_first V c t h0, stepAcc_apply V c t _ p q r (by rw [ht]; exact hr), k0_pay1_apply, zero_add, ht]
    refine Finset.sum_congr rfl fun j _ => ?_
    rw [show 512 * (0 % 8) + j = j from by omega]
  | succ n ih =>
    intro t ht p q r hr
    by_cases h0 : t.val % 8 = 0
    · have h0' : (n + 1) % 8 = 0 := by rw [← ht]; exact h0
      rw [acc_first V c t h0, stepAcc_apply V c t _ p q r (by rw [ht]; exact hr), k0_pay1_apply, zero_add, ht, h0']
      refine Finset.sum_congr rfl fun j _ => ?_
      rw [show 512 * 0 + j = j from by omega]
    · have h0' : ¬(n + 1) % 8 = 0 := by rw [← ht]; exact h0
      have hlt : n < cfg0.N := by have := t.isLt; omega
      have hprev : (prevAt V c t).acc (ix2 p q)
          = ∑ j ∈ Finset.range (512 * (n % 8 + 1)), prodTerm (V c main_arg1) (V c main_arg0) r q j := by
        obtain ⟨tv, htv⟩ := t
        obtain rfl : tv = n + 1 := ht
        exact ih ⟨n, hlt⟩ rfl p q r (by rw [hr]; omega)
      rw [acc_next V c t h0, stepAcc_apply V c t _ p q r (by rw [ht]; exact hr), hprev, ht,
        show 512 * ((n + 1) % 8 + 1) = 512 * (n % 8 + 1) + 512 from by omega,
        show 512 * ((n + 1) % 8) = 512 * (n % 8 + 1) from by omega]
      exact (Finset.sum_range_add _ _ _).symm

/-- THE FINISHED ACCUMULATOR: at the last step of a row block, entry (p, q) is entry (1024 · (t / 8) + p, q) of W · X,
    for W and X any spelling of the two arrays as the region finds them. -/
theorem acc_last_of (c : Dev nD) (t : Fin cfg0.N) (h7 : t.val % 8 = 7) (p : Fin 1024) (q : Fin 256) (hp : 1024 * (t.val / 8) + p.val < 4096)
    (W : S4096x4096.Idx → EReal) (X : S4096x256.Idx → EReal) (hW : W = V c main_arg1) (hX : X = V c main_arg0) :
    (Cert.KernelIdeal.Hand.outsAt0 V c t.val t.isLt).acc (ValueIdx.ix2 p q)
      = ∑ k : Fin 4096, W (ValueIdx.ix2 ⟨1024 * (t.val / 8) + p.val, hp⟩ k) * X (ValueIdx.ix2 k q) := by
  subst hW hX
  rw [acc_partial V c t.val t rfl p q ⟨1024 * (t.val / 8) + p.val, hp⟩ rfl, h7, show 512 * (7 + 1) = 4096 from rfl,
    ← Fin.sum_univ_eq_sum_range (fun j => prodTerm (V c main_arg1) (V c main_arg0) ⟨1024 * (t.val / 8) + p.val, hp⟩ q j) 4096]
  refine Finset.sum_congr rfl fun k _ => ?_
  unfold prodTerm
  rw [dif_pos k.isLt]

/-- The same, as the entry of the product W · X the two arrays' names give. -/
theorem acc_last (c : Dev nD) (t : Fin cfg0.N) (h7 : t.val % 8 = 7) (p : Fin 1024) (q : Fin 256) (hp : 1024 * (t.val / 8) + p.val < 4096) :
    (Cert.KernelIdeal.Hand.outsAt0 V c t.val t.isLt).acc (ValueIdx.ix2 p q) = cur V c ⟨1024 * (t.val / 8) + p.val, hp⟩ q :=
  acc_last_of V c t h7 p q hp (Warr V c) (Xarr V c) rfl rfl

end Cert.KernelIdeal.Val

end
-- ==== Proof.Val.Spec.lean ====
/-
  One step of a leaky integrate-and-fire layer, entry by entry.  Both programs compute, for every neuron n and
  batch column b, the same five scalar functions of

    a = the input current, entry (n, b) of the matrix product W · X,
    u = the membrane potential, r = the refractory counter,

  and, for the input trace, of the old trace e and the input x.  They are written here over the extended reals with
  exactly the operations the exact-arithmetic reading gives the two programs' vector operations at an element: the
  order's comparison as a one-bit word, the choice between two values on such a word, sum, difference, product, the
  quotient with its corners at a zero divisor, and the absolute value as max x (−x).  The five constants stay the float
  words both programs carry (0, 1, 0.1, the threshold 0.6 and the slope 0.3 as f32 patterns): the same word denotes the
  same extended real on both sides, so none of them is ever evaluated.
-/
import Idealize.ShloMosaic.PureOps.Ideal
import Idealize.ShloMosaic.PureOps.Ideal.Laws
import Idealize.ShloMosaic.Lib.ValueIdx

noncomputable section

namespace Cert.Spec

open Idealize.ShloMosaic

/-- The word of 0. -/
local notation "w0" => Ideal.ofBits FTy.f32 0x00000000#32
/-- The word of 1: one time step, and a spike. -/
local notation "w1" => Ideal.ofBits FTy.f32 0x3F800000#32
/-- The word of 0.1: the time step over the time constant. -/
local notation "wLeak" => Ideal.ofBits FTy.f32 0x3DCCCCCD#32
/-- The word of 0.6: the firing threshold. -/
local notation "wThresh" => Ideal.ofBits FTy.f32 0x3F19999A#32
/-- The word of 0.3: the height of the surrogate derivative. -/
local notation "wSlope" => Ideal.ofBits FTy.f32 0x3E99999A#32

/-- "Still refractory after this step": the counter less one step is above zero. -/
def resting (r : EReal) : BitVec 1 := Ideal.cmp .ogt (r - w1) w0

/-- The potential before the threshold is applied: held while refractory, otherwise the current is leaked in,
    u + a · 0.1. -/
def charged (a u r : EReal) : EReal := Scalar.select (resting r) u (u + a * wLeak)

/-- "The neuron fires": the charged potential is above the threshold. -/
def firing (a u r : EReal) : BitVec 1 := Ideal.cmp .ogt (charged a u r) wThresh

/-- The new potential: the charged potential, less the threshold where the neuron fires. -/
def newU (a u r : EReal) : EReal := Scalar.select (firing a u r) (charged a u r - wThresh) (charged a u r)

/-- The new refractory counter: zero where the neuron fires; otherwise one step less while refractory, else zero. -/
def newR (a u r : EReal) : EReal := Scalar.select (firing a u r) w0 (Scalar.select (resting r) (r - w1) w0)

/-- The spike: one where the neuron fires, else zero. -/
def spike (a u r : EReal) : EReal := Scalar.select (firing a u r) w1 w0

/-- The surrogate derivative of the spike: 0.3 · max (0, 1 − |(u' − 0.6) / 0.6|) at the new potential u'. -/
def hval (a u r : EReal) : EReal :=
  wSlope * max w0 (w1 - max (Ideal.div (newU a u r - wThresh) wThresh) (-Ideal.div (newU a u r - wThresh) wThresh))

/-- The new input trace: 0.1 · e + x. -/
def newEps (e x : EReal) : EReal := wLeak * e + x

end Cert.Spec

end
-- ==== Proof.Val.Pointwise.lean ====
/-
  The neuron update inside the first kernel, read at one entry.  At the last step of a row block the kernel holds
  three 1024 × 256 blocks — the accumulated product (the input currents), the potentials and the refractory counters —
  and computes its four results from them entry by entry.  Each result block at an index is the scalar update of the
  three entries at that index; and the host's trace update 0.1 · eps + inputs at an index is the scalar trace update.
  Every vector operation involved acts entry by entry, so each statement holds by unfolding the operations at the index.
-/
import proofs.«139415_j41248865910902_2_alg».proof.Proof.Gen.KernelIdeal.Skeleton
import proofs.«139415_j41248865910902_2_alg».proof.Proof.Gen.KernelIdeal.Launch
import proofs.«139415_j41248865910902_2_alg».proof.Proof.Val.Spec
import Idealize.ShloMosaic.Lib.ValueIdx
import Idealize.ShloMosaic.Lib.IdealHost

set_option maxRecDepth 16384

noncomputable section

namespace Cert.KernelIdeal.Val

open Idealize.ShloMosaic Idealize.ShloMosaic.ValueIdx
open Cert.KernelIdeal Cert.KernelIdeal.Gen

/-! ## The two conditions and the charged potential -/

/-- The block of "still refractory" bits at an index. -/
theorem k0_pay3_apply (v19 : Vec Ideal S1024x256 .f32) (j : S1024x256.Idx) :
    Cert.KernelIdeal.Gen.k0_pay3 v19 j = Cert.Spec.resting (v19 j) := rfl

/-- The charged potential at an index. -/
theorem k0_pay4_apply (v17 v18 v19 : Vec Ideal S1024x256 .f32) (j : S1024x256.Idx) :
    Cert.KernelIdeal.Gen.k0_pay4 v17 v18 v19 j = Cert.Spec.charged (v17 j) (v18 j) (v19 j) := rfl

/-- The block of "fires" bits at an index. -/
theorem k0_pay5_apply (v17 v18 v19 : Vec Ideal S1024x256 .f32) (j : S1024x256.Idx) :
    Cert.KernelIdeal.Gen.k0_pay5 v17 v18 v19 j = Cert.Spec.firing (v17 j) (v18 j) (v19 j) := rfl

/-! ## The four results -/

/-- The new potential at an index. -/
theorem k0_pay6_apply (v17 v18 v19 : Vec Ideal S1024x256 .f32) (j : S1024x256.Idx) :
    Cert.KernelIdeal.Gen.k0_pay6 v17 v18 v19 j = Cert.Spec.newU (v17 j) (v18 j) (v19 j) := rfl

/-- The new refractory counter at an index. -/
theorem k0_pay7_apply (v17 v18 v19 : Vec Ideal S1024x256 .f32) (j : S1024x256.Idx) :
    Cert.KernelIdeal.Gen.k0_pay7 v17 v18 v19 j = Cert.Spec.newR (v17 j) (v18 j) (v19 j) := rfl

/-- The spike at an index. -/
theorem k0_pay8_apply (v17 v18 v19 : Vec Ideal S1024x256 .f32) (j : S1024x256.Idx) :
    Cert.KernelIdeal.Gen.k0_pay8 v17 v18 v19 j = Cert.Spec.spike (v17 j) (v18 j) (v19 j) := rfl

/-- The surrogate derivative at an index. -/
theorem k0_pay9_apply (v17 v18 v19 : Vec Ideal S1024x256 .f32) (j : S1024x256.Idx) :
    Cert.KernelIdeal.Gen.k0_pay9 v17 v18 v19 j = Cert.Spec.hval (v17 j) (v18 j) (v19 j) := rfl

/-! ## The host's trace update -/

/-- The host's 0.1 · eps + inputs at an index: the scalar constant broadcast reads 0.1 everywhere. -/
theorem newEps_host (E X : FVec Ideal S4096x256 .f32) (j : S4096x256.Idx) :
    addf (mulf (broadcastInDim S4096x256 ![] bcast_S_S4096x256 (constant (F := Ideal) S_ .f32 0x3DCCCCCD#32)) E) X j
      = Cert.Spec.newEps (E j) (X j) := by
  rw [addf_apply, mulf_apply, broadcastInDim_scalar_apply]
  rfl

end Cert.KernelIdeal.Val

end
-- ==== Proof.Val.R0Final.lean ====
/-
  Region 0's four result arrays, entry by entry.  Row block i of each result is written back once, at the
  last step k = 7 of the block, from the finished accumulator — which there is the full 4096-term product of
  row 1024·i + p of W with column q of the inputs — and the row block's u and r.  The 4 write-backs cover
  the 4096 rows.
-/
import proofs.«139415_j41248865910902_2_alg».proof.Proof.Val.R0Pieces
import proofs.«139415_j41248865910902_2_alg».proof.Proof.Val.R0Acc
import proofs.«139415_j41248865910902_2_alg».proof.Proof.Val.Args
import proofs.«139415_j41248865910902_2_alg».proof.Proof.Val.Pointwise
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Hand ValueIdx

variable (V : (c : Dev nD) → (b : Ref sig .tc) → Buf (Elt Ideal) ((c : Thread nD τ).loc b))

/-! ## Where a row block sits in its array -/

theorem idxf2 : ∀ t : Fin cfg0.N, win0_2.index t (0 : Fin 2) = t.val / 8 ∧ win0_2.index t (1 : Fin 2) = 0 :=
  (by decide +kernel : ∀ t : Fin grid0.N, _)
theorem idxf3 : ∀ t : Fin cfg0.N, win0_3.index t (0 : Fin 2) = t.val / 8 ∧ win0_3.index t (1 : Fin 2) = 0 :=
  (by decide +kernel : ∀ t : Fin grid0.N, _)
theorem idxf4 : ∀ t : Fin cfg0.N, win0_4.index t (0 : Fin 2) = t.val / 8 ∧ win0_4.index t (1 : Fin 2) = 0 :=
  (by decide +kernel : ∀ t : Fin grid0.N, _)
theorem idxf5 : ∀ t : Fin cfg0.N, win0_5.index t (0 : Fin 2) = t.val / 8 ∧ win0_5.index t (1 : Fin 2) = 0 :=
  (by decide +kernel : ∀ t : Fin grid0.N, _)
theorem idxf6 : ∀ t : Fin cfg0.N, win0_6.index t (0 : Fin 2) = t.val / 8 ∧ win0_6.index t (1 : Fin 2) = 0 :=
  (by decide +kernel : ∀ t : Fin grid0.N, _)
theorem idxf7 : ∀ t : Fin cfg0.N, win0_7.index t (0 : Fin 2) = t.val / 8 ∧ win0_7.index t (1 : Fin 2) = 0 :=
  (by decide +kernel : ∀ t : Fin grid0.N, _)

theorem emb2 (t : Fin cfg0.N) (p : Fin 1024) (q : Fin 256) (hp : 1024 * (t.val / 8) + p.val < 4096) :
    ((cfg0.win 2).blk t).view.emb (ix2 p q) = ix2 (⟨1024 * (t.val / 8) + p.val, hp⟩ : Fin 4096) q := by
  obtain ⟨e0, e1⟩ := idxf2 t
  funext a; apply Fin.ext
  match a with
  | ⟨0, _⟩ => show win0_2.index t (0 : Fin 2) * 1024 + 1 * p.val = 1024 * (t.val / 8) + p.val; rw [e0]; omega
  | ⟨1, _⟩ => show win0_2.index t (1 : Fin 2) * 256 + 1 * q.val = q.val; rw [e1]; omega

theorem emb3 (t : Fin cfg0.N) (p : Fin 1024) (q : Fin 256) (hp : 1024 * (t.val / 8) + p.val < 4096) :
    ((cfg0.win 3).blk t).view.emb (ix2 p q) = ix2 (⟨1024 * (t.val / 8) + p.val, hp⟩ : Fin 4096) q := by
  obtain ⟨e0, e1⟩ := idxf3 t
  funext a; apply Fin.ext
  match a with
  | ⟨0, _⟩ => show win0_3.index t (0 : Fin 2) * 1024 + 1 * p.val = 1024 * (t.val / 8) + p.val; rw [e0]; omega
  | ⟨1, _⟩ => show win0_3.index t (1 : Fin 2) * 256 + 1 * q.val = q.val; rw [e1]; omega

theorem emb4 (t : Fin cfg0.N) (p : Fin 1024) (q : Fin 256) (hp : 1024 * (t.val / 8) + p.val < 4096) :
    ((cfg0.win 4).blk t).view.emb (ix2 p q) = ix2 (⟨1024 * (t.val / 8) + p.val, hp⟩ : Fin 4096) q := by
  obtain ⟨e0, e1⟩ := idxf4 t
  funext a; apply Fin.ext
  match a with
  | ⟨0, _⟩ => show win0_4.index t (0 : Fin 2) * 1024 + 1 * p.val = 1024 * (t.val / 8) + p.val; rw [e0]; omega
  | ⟨1, _⟩ => show win0_4.index t (1 : Fin 2) * 256 + 1 * q.val = q.val; rw [e1]; omega

theorem emb5 (t : Fin cfg0.N) (p : Fin 1024) (q : Fin 256) (hp : 1024 * (t.val / 8) + p.val < 4096) :
    ((cfg0.win 5).blk t).view.emb (ix2 p q) = ix2 (⟨1024 * (t.val / 8) + p.val, hp⟩ : Fin 4096) q := by
  obtain ⟨e0, e1⟩ := idxf5 t
  funext a; apply Fin.ext
  match a with
  | ⟨0, _⟩ => show win0_5.index t (0 : Fin 2) * 1024 + 1 * p.val = 1024 * (t.val / 8) + p.val; rw [e0]; omega
  | ⟨1, _⟩ => show win0_5.index t (1 : Fin 2) * 256 + 1 * q.val = q.val; rw [e1]; omega

theorem emb6 (t : Fin cfg0.N) (p : Fin 1024) (q : Fin 256) (hp : 1024 * (t.val / 8) + p.val < 4096) :
    ((cfg0.win 6).blk t).view.emb (ix2 p q) = ix2 (⟨1024 * (t.val / 8) + p.val, hp⟩ : Fin 4096) q := by
  obtain ⟨e0, e1⟩ := idxf6 t
  funext a; apply Fin.ext
  match a with
  | ⟨0, _⟩ => show win0_6.index t (0 : Fin 2) * 1024 + 1 * p.val = 1024 * (t.val / 8) + p.val; rw [e0]; omega
  | ⟨1, _⟩ => show win0_6.index t (1 : Fin 2) * 256 + 1 * q.val = q.val; rw [e1]; omega

theorem emb7 (t : Fin cfg0.N) (p : Fin 1024) (q : Fin 256) (hp : 1024 * (t.val / 8) + p.val < 4096) :
    ((cfg0.win 7).blk t).view.emb (ix2 p q) = ix2 (⟨1024 * (t.val / 8) + p.val, hp⟩ : Fin 4096) q := by
  obtain ⟨e0, e1⟩ := idxf7 t
  funext a; apply Fin.ext
  match a with
  | ⟨0, _⟩ => show win0_7.index t (0 : Fin 2) * 1024 + 1 * p.val = 1024 * (t.val / 8) + p.val; rw [e0]; omega
  | ⟨1, _⟩ => show win0_7.index t (1 : Fin 2) * 256 + 1 * q.val = q.val; rw [e1]; omega

/-! ## The row blocks of u and r -/

theorem ublk (c : Dev nD) (t : Fin cfg0.N) (p : Fin 1024) (q : Fin 256) (hp : 1024 * (t.val / 8) + p.val < 4096) :
    (iblk0 V c 2 t : Vec Ideal S1024x256 .f32) (ix2 p q) = Uarr V c (ix2 (⟨1024 * (t.val / 8) + p.val, hp⟩ : Fin 4096) q) := by
  unfold iblk0
  rw [View.read_apply, emb2 t p q hp]
  rfl
theorem rblk (c : Dev nD) (t : Fin cfg0.N) (p : Fin 1024) (q : Fin 256) (hp : 1024 * (t.val / 8) + p.val < 4096) :
    (iblk0 V c 3 t : Vec Ideal S1024x256 .f32) (ix2 p q) = Rarr V c (ix2 (⟨1024 * (t.val / 8) + p.val, hp⟩ : Fin 4096) q) := by
  unfold iblk0
  rw [View.read_apply, emb3 t p q hp]
  rfl

/-! ## The finished accumulator -/

/-- At a last step the accumulator the results are computed from is the state's accumulator after that point. -/
theorem stepAcc_last (c : Dev nD) (t : Fin cfg0.N) (h0 : ¬t.val % 8 = 0) (h7 : t.val % 8 = 7) :
    stepAcc V c t (prevAt V c t).acc = (outsAt0 V c t.val t.isLt).acc := by
  rw [outsAt0_C V c t h0 h7]
  dsimp only
  exact (accC V c t h0 h7 (prevAt V c t).acc).symm

/-- The z array as ONE function of the arguments. -/
def Gz (c : Dev nD) : S4096x256.Idx → EReal :=
  fun j => Cert.Spec.spike (cur V c (j 0) (j 1)) (Uarr V c j) (Rarr V c j)

/-- What the last step of row block i writes back into it is that block of the function. -/
theorem flushed_z (c : Dev nD) (t : Fin cfg0.N) (hf : (cfg0.win 4).flush t = true) :
    (dat0 V c).flushed 4 t = ((cfg0.win 4).blk t).view.read (Elt Ideal) (Gz V c) := by
  have h7 : t.val % 8 = 7 := (flush0_4 t).mp hf
  have h0 : ¬t.val % 8 = 0 := by omega
  have hN : t.val < 32 := lt_of_lt_of_eq t.isLt (show cfg0.N = 32 from N_0)
  show (cfg0.win 4).cut (grid0.coords t) ((dat0 V c).after 4 t) = _
  rw [after0_4, outsAt0_C V c t h0 h7]
  dsimp only
  rw [zC V c t h0 h7 (prevAt V c t).acc, stepAcc_last V c t h0 h7]
  funext y
  obtain ⟨p, q, rfl⟩ : ∃ (p : Fin 1024) (q : Fin 256), y = ix2 p q := ⟨y 0, y 1, eq_ix2 y⟩
  have hp : 1024 * (t.val / 8) + p.val < 4096 := by have := p.isLt; omega
  show k0_pay8 (outsAt0 V c t.val t.isLt).acc (iblk0 V c 2 t) (iblk0 V c 3 t) (ix2 p q) = Gz V c (((cfg0.win 4).blk t).view.emb (ix2 p q))
  rw [k0_pay8_apply, emb4 t p q hp, acc_last V c t h7 p q hp, ublk V c t p q hp, rblk V c t p q hp]
  rfl

/-- An entry is in a point's block iff each coordinate is in the block's range on its axis. -/
theorem mem_blk_z (t : Fin cfg0.N) (i : S4096x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v0_0).slice (win0_4.rect t)).set ↔ _
  rw [View.set_slice_whole, Rect.mem_set_unit]
  exact Iff.rfl

/-- Every row lies in the block its row block's last step writes back. -/
theorem cover_z (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  have hN : cfg0.N = 32 := N_0
  obtain ⟨t, ht⟩ : ∃ t : Fin cfg0.N, t.val = 8 * ((i 0).val / 1024) + 7 := ⟨⟨8 * ((i 0).val / 1024) + 7, by omega⟩, rfl⟩
  obtain ⟨e0, e1⟩ := idxf4 t
  refine ⟨t, (flush0_4 t).mpr (by omega), ?_⟩
  rw [mem_blk_z]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 256 ≤ (i 1).val ∧ (i 1).val < win0_4.index t (1 : Fin 2) * 256 + 256
    rw [e1]; omega

/-- THE ARRAY after the region. -/
theorem final_z (c : Dev nD) : (dat0 V c).arrAt 4 cfg0.N = Gz V c :=
  (dat0 V c).arrAt_eq_of_cover 4 (Gz V c) (flushed_z V c) (cover_z)

/-- The nu array as ONE function of the arguments. -/
def Gnu (c : Dev nD) : S4096x256.Idx → EReal :=
  fun j => Cert.Spec.newU (cur V c (j 0) (j 1)) (Uarr V c j) (Rarr V c j)

/-- What the last step of row block i writes back into it is that block of the function. -/
theorem flushed_nu (c : Dev nD) (t : Fin cfg0.N) (hf : (cfg0.win 5).flush t = true) :
    (dat0 V c).flushed 5 t = ((cfg0.win 5).blk t).view.read (Elt Ideal) (Gnu V c) := by
  have h7 : t.val % 8 = 7 := (flush0_5 t).mp hf
  have h0 : ¬t.val % 8 = 0 := by omega
  have hN : t.val < 32 := lt_of_lt_of_eq t.isLt (show cfg0.N = 32 from N_0)
  show (cfg0.win 5).cut (grid0.coords t) ((dat0 V c).after 5 t) = _
  rw [after0_5, outsAt0_C V c t h0 h7]
  dsimp only
  rw [nuC V c t h0 h7 (prevAt V c t).acc, stepAcc_last V c t h0 h7]
  funext y
  obtain ⟨p, q, rfl⟩ : ∃ (p : Fin 1024) (q : Fin 256), y = ix2 p q := ⟨y 0, y 1, eq_ix2 y⟩
  have hp : 1024 * (t.val / 8) + p.val < 4096 := by have := p.isLt; omega
  show k0_pay6 (outsAt0 V c t.val t.isLt).acc (iblk0 V c 2 t) (iblk0 V c 3 t) (ix2 p q) = Gnu V c (((cfg0.win 5).blk t).view.emb (ix2 p q))
  rw [k0_pay6_apply, emb5 t p q hp, acc_last V c t h7 p q hp, ublk V c t p q hp, rblk V c t p q hp]
  rfl

/-- An entry is in a point's block iff each coordinate is in the block's range on its axis. -/
theorem mem_blk_nu (t : Fin cfg0.N) (i : S4096x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v0_1).slice (win0_5.rect t)).set ↔ _
  rw [View.set_slice_whole, Rect.mem_set_unit]
  exact Iff.rfl

/-- Every row lies in the block its row block's last step writes back. -/
theorem cover_nu (i : S4096x256.Idx) :
    ∃ t : Fin cfg0.N, (cfg0.win 5).flush t = true ∧ i ∈ ((cfg0.win 5).blk t).view.set := by
  have hi0 : (i 0).val < 4096 := (i 0).isLt
  have hi1 : (i 1).val < 256 := (i 1).isLt
  have hN : cfg0.N = 32 := N_0
  obtain ⟨t, ht⟩ : ∃ t : Fin cfg0.N, t.val = 8 * ((i 0).val / 1024) + 7 := ⟨⟨8 * ((i 0).val / 1024) + 7, by omega⟩, rfl⟩
  obtain ⟨e0, e1⟩ := idxf5 t
  refine ⟨t, (flush0_5 t).mpr (by omega), ?_⟩
  rw [mem_blk_nu]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 256 ≤ (i 1).val ∧ (i 1).val < win0_5.index t (1 : Fin 2) * 256 + 256
    rw [e1]; omega

/-- THE ARRAY after the region. -/
theorem final_nu (c : Dev nD) : (dat0 V c).arrAt 5 cfg0.N = Gnu V c :=
  (dat0 V c).arrAt_eq_of_cover 5 (Gnu V c) (flushed_nu V c) (cover_nu)

/-- The nr array as ONE function of the arguments. -/
def Gnr (c : Dev nD) : S4096x256.Idx → EReal :=
  fun j => Cert.Spec.newR (cur V c (j 0) (j 1)) (Uarr V c j) (Rarr V c j)

/-- What the last step of row block i writes back into it is that block of the function. -/
theorem flushed_nr (c : Dev nD) (t : Fin cfg0.N) (hf : (cfg0.win 6).flush t = true) :
    (dat0 V c).flushed 6 t = ((cfg0.win 6).blk t).view.read (Elt Ideal) (Gnr V c) := by
  have h7 : t.val % 8 = 7 := (flush0_6 t).mp hf
  have h0 : ¬t.val % 8 = 0 := by omega
  have hN : t.val < 32 := lt_of_lt_of_eq t.isLt (show cfg0.N = 32 from N_0)
  show (cfg0.win 6).cut (grid0.coords t) ((dat0 V c).after 6 t) = _
  rw [after0_6, outsAt0_C V c t h0 h7]
  dsimp only
  rw [nrC V c t h0 h7 (prevAt V c t).acc, stepAcc_last V c t h0 h7]
  funext y
  obtain ⟨p, q, rfl⟩ : ∃ (p : Fin 1024) (q : Fin 256), y = ix2 p q := ⟨y 0, y 1, eq_ix2 y⟩
  have hp : 1024 * (t.val / 8) + p.val < 4096 := by have := p.isLt; omega
  show k0_pay7 (outsAt0 V c t.val t.isLt).acc (iblk0 V c 2 t) (iblk0 V c 3 t) (ix2 p q) = Gnr V c (((cfg0.win 6).blk t).view.emb (ix2 p q))
  rw [k0_pay7_apply, emb6 t p q hp, acc_last V c t h7 p q hp, ublk V c t p q hp, rblk V c t p q hp]
  rfl

/-- An entry is in a point's block iff each coordinate is in the block's range on its axis. -/
theorem mem_blk_nr (t : Fin cfg0.N) (i : S4096x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v0_2).slice (win0_6.rect t)).set ↔ _
  rw [View.set_slice_whole, Rect.mem_set_unit]
  exact Iff.rfl

/-- Every row lies in the block its row block's last step writes back. -/
theorem cover_nr (i : S4096x256.Idx) :
    ∃ t : Fin cfg0.N, (cfg0.win 6).flush t = true ∧ i ∈ ((cfg0.win 6).blk t).view.set := by
  have hi0 : (i 0).val < 4096 := (i 0).isLt
  have hi1 : (i 1).val < 256 := (i 1).isLt
  have hN : cfg0.N = 32 := N_0
  obtain ⟨t, ht⟩ : ∃ t : Fin cfg0.N, t.val = 8 * ((i 0).val / 1024) + 7 := ⟨⟨8 * ((i 0).val / 1024) + 7, by omega⟩, rfl⟩
  obtain ⟨e0, e1⟩ := idxf6 t
  refine ⟨t, (flush0_6 t).mpr (by omega), ?_⟩
  rw [mem_blk_nr]
  intro a
  match a with
  | ⟨0, _⟩ =>
    show win0_6.index t (0 : Fin 2) * 1024 ≤ (i 0).val ∧ (i 0).val < win0_6.index t (0 : Fin 2) * 1024 + 1024
    rw [e0]; omega
  | ⟨1, _⟩ =>
    show win0_6.index t (1 : Fin 2) * 256 ≤ (i 1).val ∧ (i 1).val < win0_6.index t (1 : Fin 2) * 256 + 256
    rw [e1]; omega

/-- THE ARRAY after the region. -/
theorem final_nr (c : Dev nD) : (dat0 V c).arrAt 6 cfg0.N = Gnr V c :=
  (dat0 V c).arrAt_eq_of_cover 6 (Gnr V c) (flushed_nr V c) (cover_nr)

/-- The h array as ONE function of the arguments. -/
def Gh (c : Dev nD) : S4096x256.Idx → EReal :=
  fun j => Cert.Spec.hval (cur V c (j 0) (j 1)) (Uarr V c j) (Rarr V c j)

/-- What the last step of row block i writes back into it is that block of the function. -/
theorem flushed_h (c : Dev nD) (t : Fin cfg0.N) (hf : (cfg0.win 7).flush t = true) :
    (dat0 V c).flushed 7 t = ((cfg0.win 7).blk t).view.read (Elt Ideal) (Gh V c) := by
  have h7 : t.val % 8 = 7 := (flush0_7 t).mp hf
  have h0 : ¬t.val % 8 = 0 := by omega
  have hN : t.val < 32 := lt_of_lt_of_eq t.isLt (show cfg0.N = 32 from N_0)
  show (cfg0.win 7).cut (grid0.coords t) ((dat0 V c).after 7 t) = _
  rw [after0_7, outsAt0_C V c t h0 h7]
  dsimp only
  rw [hC V c t h0 h7 (prevAt V c t).acc, stepAcc_last V c t h0 h7]
  funext y
  obtain ⟨p, q, rfl⟩ : ∃ (p : Fin 1024) (q : Fin 256), y = ix2 p q := ⟨y 0, y 1, eq_ix2 y⟩
  have hp : 1024 * (t.val / 8) + p.val < 4096 := by have := p.isLt; omega
  show k0_pay9 (outsAt0 V c t.val t.isLt).acc (iblk0 V c 2 t) (iblk0 V c 3 t) (ix2 p q) = Gh V c (((cfg0.win 7).blk t).view.emb (ix2 p q))
  rw [k0_pay9_apply, emb7 t p q hp, acc_last V c t h7 p q hp, ublk V c t p q hp, rblk V c t p q hp]
  rfl

/-- An entry is in a point's block iff each coordinate is in the block's range on its axis. -/
theorem mem_blk_h (t : Fin cfg0.N) (i : S4096x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v0_3).slice (win0_7.rect t)).set ↔ _
  rw [View.set_slice_whole, Rect.mem_set_unit]
  exact Iff.rfl

/-- Every row lies in the block its row block's last step writes back. -/
theorem cover_h (i : S4096x256.Idx) :
    ∃ t : Fin cfg0.N, (cfg0.win 7).flush t = true ∧ i ∈ ((cfg0.win 7).blk t).view.set := by
  have hi0 : (i 0).val < 4096 := (i 0).isLt
  have hi1 : (i 1).val < 256 := (i 1).isLt
  have hN : cfg0.N = 32 := N_0
  obtain ⟨t, ht⟩ : ∃ t : Fin cfg0.N, t.val = 8 * ((i 0).val / 1024) + 7 := ⟨⟨8 * ((i 0).val / 1024) + 7, by omega⟩, rfl⟩
  obtain ⟨e0, e1⟩ := idxf7 t
  refine ⟨t, (flush0_7 t).mpr (by omega), ?_⟩
  rw [mem_blk_h]
  intro a
  match a with
  | ⟨0, _⟩ =>
    show win0_7.index t (0 : Fin 2) * 1024 ≤ (i 0).val ∧ (i 0).val < win0_7.index t (0 : Fin 2) * 1024 + 1024
    rw [e0]; omega
  | ⟨1, _⟩ =>
    show win0_7.index t (1 : Fin 2) * 256 ≤ (i 1).val ∧ (i 1).val < win0_7.index t (1 : Fin 2) * 256 + 256
    rw [e1]; omega

/-- THE ARRAY after the region. -/
theorem final_h (c : Dev nD) : (dat0 V c).arrAt 7 cfg0.N = Gh V c :=
  (dat0 V c).arrAt_eq_of_cover 7 (Gh V c) (flushed_h V c) (cover_h)

end Cert.KernelIdeal.Val

end
-- ==== Proof.Val.R1Value.lean ====
/-
  Region 1's result array read at an entry, at the ideal values: after the sixteen points of the 4 × 4 grid have
  written their blocks back, entry (n, k) of new_e is the 256-term sum of row n of h times row k of new_eps, both as
  the region found them.  Point t = 4·i + j writes block (i, j), which is the product of rows 1024·i … of h with rows
  1024·j … of new_eps; the sixteen blocks tile the array, and each is the restriction of one whole-array function.
-/
import proofs.«139415_j41248865910902_2_alg».proof.Proof.I.R1Frame
import proofs.«139415_j41248865910902_2_alg».proof.Proof.Val.Matmul
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- h as the region finds it, -/
abbrev hArr (c : Dev nD) : Vec Ideal S4096x256 .f32 := V c main_v0_3
/-- and new_eps. -/
abbrev epsArr (c : Dev nD) : Vec Ideal S4096x256 .f32 := V c main_v3

/-- The outer product h · new_epsᵀ of the two: entry (n, k) is Σ_b h[n, b] · new_eps[k, b]. -/
def newE (c : Dev nD) : Vec Ideal S4096x4096 .f32 :=
  fun j => ∑ b : Fin 256, hArr V c (ix2 (n0 := 4096) (j 0) b) * epsArr V c (ix2 (n0 := 4096) (j 1) b)

/-- The same at an index whose two coordinates are named. -/
theorem newE_at (c : Dev nD) (j : S4096x4096.Idx) (n k : Fin 4096) (hn : (j 0).val = n.val) (hk : (j 1).val = k.val) :
    newE V c j = ∑ b : Fin 256, hArr V c (ix2 n b) * epsArr V c (ix2 k b) := by
  have e0 : (j 0 : Fin 4096) = n := Fin.ext hn
  have e1 : (j 1 : Fin 4096) = k := Fin.ext hk
  show ∑ b : Fin 256, hArr V c (ix2 (n0 := 4096) (j 0) b) * epsArr V c (ix2 (n0 := 4096) (j 1) b) = _
  rw [e0, e1]

/-- Where the windows' blocks and the slab of new_eps sit, over the grid: point t = 4·i + j has h's row block i, the
    whole of new_eps, result block (i, j), and the slab starts at row 1024·j. -/
theorem grid_facts : ∀ t : Fin cfg1.N, win1_0.index t (0 : Fin 2) = t.val / 4 ∧ win1_0.index t (1 : Fin 2) = 0
    ∧ win1_1.index t (0 : Fin 2) = 0 ∧ win1_1.index t (1 : Fin 2) = 0
    ∧ win1_2.index t (0 : Fin 2) = t.val / 4 ∧ win1_2.index t (1 : Fin 2) = t.val % 4
    ∧ k1_off1 (grid1.coords t) (0 : Fin 2) = 1024 * (t.val % 4) ∧ k1_off1 (grid1.coords t) (1 : Fin 2) = 0 :=
  (by decide +kernel : ∀ t : Fin grid1.N, _)

/-- Row p of h's block at point t is row 1024·(t / 4) + p of h. -/
theorem hblock_at (c : Dev nD) (t : Fin cfg1.N) (p : Fin 1024) (b : Fin 256) (n : Fin 4096)
    (hn : n.val = 1024 * (t.val / 4) + p.val) :
    iblk1 V c 0 t (ix2 p b) = V c main_v0_3 (ix2 n b) := by
  obtain ⟨e0, e1, -⟩ := grid_facts t
  unfold iblk1
  rw [View.read_apply]
  show V c main_v0_3 _ = V c main_v0_3 _
  congr 1
  funext a
  apply Fin.ext
  match a with
  | ⟨0, _⟩ => show win1_0.index t (0 : Fin 2) * 1024 + 1 * p.val = n.val; rw [e0]; omega
  | ⟨1, _⟩ => show win1_0.index t (1 : Fin 2) * 256 + 1 * b.val = b.val; rw [e1]; omega

/-- The window of new_eps holds the whole array at every point. -/
theorem epsblock_eq (c : Dev nD) (t : Fin cfg1.N) (y : S4096x256.Idx) : iblk1 V c 1 t y = V c main_v3 y := by
  obtain ⟨-, -, e0, e1, -⟩ := grid_facts t
  unfold iblk1
  rw [View.read_apply]
  show V c main_v3 _ = V c main_v3 _
  congr 1
  funext a
  apply Fin.ext
  match a with
  | ⟨0, _⟩ => show win1_1.index t (0 : Fin 2) * 4096 + 1 * (y 0).val = (y 0).val; rw [e0]; omega
  | ⟨1, _⟩ => show win1_1.index t (1 : Fin 2) * 256 + 1 * (y 1).val = (y 1).val; rw [e1]; omega

/-- Row q of the slab the body loads at point t is row 1024·(t % 4) + q of new_eps. -/
theorem slab_at (c : Dev nD) (t : Fin cfg1.N) (q : Fin 1024) (b : Fin 256) (k : Fin 4096)
    (hk : k.val = 1024 * (t.val % 4) + q.val) :
    View.ld (iblk1 V c 1 t) (Rect.unit (s := S4096x256) (k1_off1 (grid1.coords t)) S1024x256.size (k1_off1_inb (grid1.coords t))) (ix2 q b)
      = V c main_v3 (ix2 k b) := by
  obtain ⟨-, -, -, -, -, -, e0, e1⟩ := grid_facts t
  refine (epsblock_eq V c t _).trans ?_
  congr 1
  funext a
  apply Fin.ext
  match a with
  | ⟨0, _⟩ => show k1_off1 (grid1.coords t) (0 : Fin 2) + 1 * q.val = k.val; rw [e0]; omega
  | ⟨1, _⟩ => show k1_off1 (grid1.coords t) (1 : Fin 2) + 1 * b.val = b.val; rw [e1]; omega

/-- What point t writes back is its block of the outer product. -/
theorem flushed_eq (c : Dev nD) (t : Fin cfg1.N) :
    (dat1 (F := Ideal) V c).flushed 2 t = ((cfg1.win 2).blk t).view.read (Elt Ideal) (newE V c) := by
  show (cfg1.win 2).cut (grid1.coords t) ((dat1 V c).after 2 t) = _
  rw [after1_2, out1_2_eq]
  obtain ⟨-, -, -, -, e0, e1, -⟩ := grid_facts t
  have ht : t.val < 16 := t.isLt
  funext j
  obtain ⟨p, q, rfl⟩ : ∃ (p : Fin 1024) (q : Fin 1024), j = ix2 p q := ⟨j 0, j 1, eq_ix2 j⟩
  show k1_pay1 (iblk1 V c 0 t) (View.ld (iblk1 V c 1 t) (Rect.unit (s := S4096x256) (k1_off1 (grid1.coords t)) S1024x256.size (k1_off1_inb (grid1.coords t)))) (ix2 p q)
    = newE V c (((cfg1.win 2).blk t).view.emb (ix2 p q))
  refine (k1_pay1_apply _ _ p q).trans ?_
  have hn : 1024 * (t.val / 4) + p.val < 4096 := by omega
  have hk : 1024 * (t.val % 4) + q.val < 4096 := by omega
  refine Eq.trans ?_ (newE_at V c _ ⟨_, hn⟩ ⟨_, hk⟩ ?_ ?_).symm
  · exact Finset.sum_congr rfl fun b _ => by rw [hblock_at V c t p b ⟨_, hn⟩ rfl, slab_at V c t q b ⟨_, hk⟩ rfl]
  · show win1_2.index t (0 : Fin 2) * 1024 + 1 * p.val = 1024 * (t.val / 4) + p.val; rw [e0]; omega
  · show win1_2.index t (1 : Fin 2) * 1024 + 1 * q.val = 1024 * (t.val % 4) + q.val; rw [e1]; omega

/-- An entry is in point t's block iff each coordinate is in the block's range on its axis. -/
theorem mem_blk (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v4).slice (win1_2.rect t)).set ↔ _
  rw [View.set_slice_whole, Rect.mem_set_unit]
  exact Iff.rfl

/-- The sixteen blocks tile the array: entry (n, k) is in the block of point 4·(n / 1024) + k / 1024. -/
theorem covered (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  refine ⟨⟨4 * ((i 0).val / 1024) + (i 1).val / 1024, by show _ < 16; omega⟩, flush1_2 _, ?_⟩
  rw [mem_blk]
  obtain ⟨-, -, -, -, e0, e1, -⟩ := grid_facts ⟨4 * ((i 0).val / 1024) + (i 1).val / 1024, by show _ < 16; omega⟩
  intro a
  match a with
  | ⟨0, _⟩ =>
    show win1_2.index _ (0 : Fin 2) * 1024 ≤ (i 0).val ∧ (i 0).val < win1_2.index _ (0 : Fin 2) * 1024 + 1024
    rw [e0]; dsimp only; omega
  | ⟨1, _⟩ =>
    show win1_2.index _ (1 : Fin 2) * 1024 ≤ (i 1).val ∧ (i 1).val < win1_2.index _ (1 : Fin 2) * 1024 + 1024
    rw [e1]; dsimp only; omega

/-- The result array after the region is the outer product, -/
theorem newE_array (c : Dev nD) : (dat1 (F := Ideal) V c).arrAt 2 cfg1.N = newE V c :=
  (dat1 (F := Ideal) V c).arrAt_eq_of_cover 2 (newE V c) (fun t _ => flushed_eq V c t) covered

/-- entry by entry. -/
theorem newE_final (c : Dev nD) (n k : Fin 4096) :
    (dat1 (F := Ideal) V c).arrAt 2 cfg1.N (ValueIdx.ix2 n k)
      = ∑ b : Fin 256, hArr V c (ValueIdx.ix2 n b) * epsArr V c (ValueIdx.ix2 k b) := by
  rw [newE_array]
  exact newE_at V c _ n k rfl rfl

end Cert.KernelIdeal.Val

end
-- ==== Proof.Val.RefRead.lean ====
/-
  The reference, read at one entry.  The reference computes the input currents as ONE product W · X (each entry a sum
  of 4096 products), then the neuron update entry by entry, the new input trace entry by entry, and the new eligibility
  trace as the product of the surrogate derivatives with the transposed new input traces (each entry a sum of 256
  products).  Stage by stage, each of its six results at an entry is the scalar update of the entries it depends on:
  with a = ∑ k, W (n, k) · X (k, b) the current of neuron n in column b,

    spike, new potential, new counter, surrogate derivative at (n, b) = the scalar functions of a, u (n, b), r (n, b);
    new input trace at (k, b) = 0.1 · eps (k, b) + X (k, b);
    new eligibility trace at (n, k) = ∑ b, (surrogate derivative at (n, b)) · (new input trace at (k, b)).

  The broadcast constants read their word at every index, a product of matrices reads as its sum of products with
  the two operands' indices named by coordinates, and every other stage acts entry by entry.
-/
import proofs.«139415_j41248865910902_2_alg».proof.Proof.Gen.ReferenceIdeal.Read
import proofs.«139415_j41248865910902_2_alg».proof.Proof.Val.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The constants: a scalar broadcast reads its word at every index -/

theorem splat_v1 (i : S4096x256.Idx) : val_main_v1 (F := Ideal) i = Ideal.ofBits .f32 0x3DCCCCCD#32 :=
  (val_main_v1_apply i).trans rfl
theorem splat_v4 (i : S4096x256.Idx) : val_main_v4 (F := Ideal) i = Ideal.ofBits .f32 0x3F800000#32 :=
  (val_main_v4_apply i).trans rfl
theorem splat_v6 (i : S4096x256.Idx) : val_main_v6 (F := Ideal) i = Ideal.ofBits .f32 0x00000000#32 :=
  (val_main_v6_apply i).trans rfl
theorem splat_v9 (i : S4096x256.Idx) : val_main_v9 (F := Ideal) i = Ideal.ofBits .f32 0x3F800000#32 :=
  (val_main_v9_apply i).trans rfl
theorem splat_call1_v1 (i : S4096x256.Idx) : val_main_call1_v1 (F := Ideal) i = Ideal.ofBits .f32 0x00000000#32 :=
  (val_main_call1_v1_apply i).trans rfl
theorem splat_v12 (i : S4096x256.Idx) : val_main_v12 (F := Ideal) i = Ideal.ofBits .f32 0x3F19999A#32 :=
  (val_main_v12_apply i).trans rfl
theorem splat_v14 (i : S4096x256.Idx) : val_main_v14 (F := Ideal) i = Ideal.ofBits .f32 0x3F19999A#32 :=
  (val_main_v14_apply i).trans rfl
theorem splat_call3_v1 (i : S4096x256.Idx) : val_main_call3_v1 (F := Ideal) i = Ideal.ofBits .f32 0x00000000#32 :=
  (val_main_call3_v1_apply i).trans rfl
theorem splat_call4_v0 (i : S4096x256.Idx) : val_main_call4_v0 (F := Ideal) i = Ideal.ofBits .f32 0x3F800000#32 :=
  (val_main_call4_v0_apply i).trans rfl
theorem splat_call4_v1 (i : S4096x256.Idx) : val_main_call4_v1 (F := Ideal) i = Ideal.ofBits .f32 0x00000000#32 :=
  (val_main_call4_v1_apply i).trans rfl
theorem splat_v20 (i : S4096x256.Idx) : val_main_v20 (F := Ideal) i = Ideal.ofBits .f32 0x3DCCCCCD#32 :=
  (val_main_v20_apply i).trans rfl
theorem splat_v23 (i : S4096x256.Idx) : val_main_v23 (F := Ideal) i = Ideal.ofBits .f32 0x3F19999A#32 :=
  (val_main_v23_apply i).trans rfl
theorem splat_v25 (i : S4096x256.Idx) : val_main_v25 (F := Ideal) i = Ideal.ofBits .f32 0x3F19999A#32 :=
  (val_main_v25_apply i).trans rfl
theorem splat_v28 (i : S4096x256.Idx) : val_main_v28 (F := Ideal) i = Ideal.ofBits .f32 0x3F800000#32 :=
  (val_main_v28_apply i).trans rfl
theorem splat_v30 (i : S4096x256.Idx) : val_main_v30 (F := Ideal) i = Ideal.ofBits .f32 0x00000000#32 :=
  (val_main_v30_apply i).trans rfl
theorem splat_v32 (i : S4096x256.Idx) : val_main_v32 (F := Ideal) i = Ideal.ofBits .f32 0x3E99999A#32 :=
  (val_main_v32_apply i).trans rfl

/-! ## The two products' operand indices, by coordinates -/

/-- Entry (n, b) of W · X multiplies W's entry (n, k) … -/
theorem lidx_v0_eq (n : Fin 4096) (b : Fin 256) (k : Fin 4096) : lidx_main_v0 (ix2 n b) k = ix2 n k :=
  funext fun a => Fin.ext (by match a with | ⟨0, _⟩ => rfl | ⟨1, _⟩ => rfl)
/-- … by X's entry (k, b). -/
theorem ridx_v0_eq (n : Fin 4096) (b : Fin 256) (k : Fin 4096) : ridx_main_v0 (ix2 n b) k = ix2 k b :=
  funext fun a => Fin.ext (by match a with | ⟨0, _⟩ => rfl | ⟨1, _⟩ => rfl)
/-- Entry (n, k) of the last product multiplies the left operand's entry (n, b) … -/
theorem lidx_v34_eq (n k : Fin 4096) (b : Fin 256) : lidx_main_v34 (ix2 n k) b = ix2 n b :=
  funext fun a => Fin.ext (by match a with | ⟨0, _⟩ => rfl | ⟨1, _⟩ => rfl)
/-- … by the right operand's entry (k, b): the right operand is contracted along its second axis, read transposed. -/
theorem ridx_v34_eq (n k : Fin 4096) (b : Fin 256) : ridx_main_v34 (ix2 n k) b = ix2 k b :=
  funext fun a => Fin.ext (by match a with | ⟨0, _⟩ => rfl | ⟨1, _⟩ => rfl)

variable (X : (⟨S4096x256, .f32⟩ : BufTy).Contents (Elt Ideal)) (W : (⟨S4096x4096, .f32⟩ : BufTy).Contents (Elt Ideal)) (U R EPS : (⟨S4096x256, .f32⟩ : BufTy).Contents (Elt Ideal))

/-! ## The stages the results share -/

/-- The input current of neuron n in column b. -/
theorem ref_current (n : Fin 4096) (b : Fin 256) :
    val_main_v0 (F := Ideal) X W (ix2 n b) = ∑ k : Fin 4096, W (ix2 n k) * X (ix2 k b) := by
  rw [val_main_v0_apply]
  simp only [lidx_v0_eq, ridx_v0_eq]

/-- "Still refractory after this step". -/
theorem ref_resting (i : S4096x256.Idx) : val_main_v7 (F := Ideal) R i = Cert.Spec.resting (R i) := by
  rw [val_main_v7_apply, val_main_v5_apply, splat_v4, splat_v6]
  rfl

/-- The charged potential. -/
theorem ref_charged (n : Fin 4096) (b : Fin 256) :
    val_main_v8 (F := Ideal) X W U R (ix2 n b)
      = Cert.Spec.charged (∑ k : Fin 4096, W (ix2 n k) * X (ix2 k b)) (U (ix2 n b)) (R (ix2 n b)) := by
  rw [val_main_v8_apply, val_main_v3_apply, val_main_v2_apply, ref_current, splat_v1, ref_resting]
  rfl

/-- "The neuron fires". -/
theorem ref_firing (n : Fin 4096) (b : Fin 256) :
    val_main_v13 (F := Ideal) X W U R (ix2 n b)
      = Cert.Spec.firing (∑ k : Fin 4096, W (ix2 n k) * X (ix2 k b)) (U (ix2 n b)) (R (ix2 n b)) := by
  rw [val_main_v13_apply, ref_charged, splat_v12]
  rfl

/-! ## The six results -/

/-- The spike of neuron n in column b. -/
theorem ref_z (n : Fin 4096) (b : Fin 256) :
    val_main_v19 (F := Ideal) X W U R (ix2 n b)
      = Cert.Spec.spike (∑ k : Fin 4096, W (ix2 n k) * X (ix2 k b)) (U (ix2 n b)) (R (ix2 n b)) := by
  rw [val_main_v19_apply, val_main_v18_apply, ref_firing, splat_call4_v0, splat_call4_v1]
  rfl

/-- The new potential. -/
theorem ref_newU (n : Fin 4096) (b : Fin 256) :
    val_main_v16 (F := Ideal) X W U R (ix2 n b)
      = Cert.Spec.newU (∑ k : Fin 4096, W (ix2 n k) * X (ix2 k b)) (U (ix2 n b)) (R (ix2 n b)) := by
  rw [val_main_v16_apply, val_main_v15_apply, ref_firing, ref_charged, splat_v14]
  rfl

/-- The new refractory counter. -/
theorem ref_newR (n : Fin 4096) (b : Fin 256) :
    val_main_v17 (F := Ideal) X W U R (ix2 n b)
      = Cert.Spec.newR (∑ k : Fin 4096, W (ix2 n k) * X (ix2 k b)) (U (ix2 n b)) (R (ix2 n b)) := by
  rw [val_main_v17_apply, val_main_v11_apply, val_main_v10_apply, ref_firing, ref_resting, splat_call3_v1, splat_call1_v1,
    splat_v9]
  rfl

/-- The surrogate derivative. -/
theorem ref_h (n : Fin 4096) (b : Fin 256) :
    val_main_v33 (F := Ideal) X W U R (ix2 n b)
      = Cert.Spec.hval (∑ k : Fin 4096, W (ix2 n k) * X (ix2 k b)) (U (ix2 n b)) (R (ix2 n b)) := by
  rw [val_main_v33_apply, val_main_v31_apply, val_main_v29_apply, val_main_v27_apply, val_main_v26_apply, val_main_v24_apply,
    ref_newU, splat_v32, splat_v30, splat_v28, splat_v25, splat_v23]
  rfl

/-- The new input trace. -/
theorem ref_newEps (k : Fin 4096) (b : Fin 256) :
    val_main_v22 (F := Ideal) X EPS (ix2 k b) = Cert.Spec.newEps (EPS (ix2 k b)) (X (ix2 k b)) := by
  rw [val_main_v22_apply, val_main_v21_apply, splat_v20]
  rfl

/-- The new eligibility trace: entry (n, k) sums, over the batch columns, the surrogate derivative of neuron n times
    the new input trace of input k. -/
theorem ref_newE (n k : Fin 4096) :
    val_main_v34 (F := Ideal) X W U R EPS (ix2 n k)
      = ∑ b : Fin 256, Cert.Spec.hval (∑ k' : Fin 4096, W (ix2 n k') * X (ix2 k' b)) (U (ix2 n b)) (R (ix2 n b))
          * Cert.Spec.newEps (EPS (ix2 k b)) (X (ix2 k b)) := by
  rw [val_main_v34_apply]
  simp only [lidx_v34_eq, ridx_v34_eq, ref_h, ref_newEps]

end Cert.ReferenceIdeal.RefValue

end
-- ==== Proof.Val.Algebraic.lean ====
/-
  The value claim: at the ideal values the kernel and the reference, from memories that agree on the six arguments,
  end with equal results.  Both are one step of a leaky integrate-and-fire layer.  With a (n, b) = Σ_k W[n, k] · X[k, b]
  the input current, each program's spikes, new potentials, new refractory counters and surrogate derivatives at (n, b)
  are the same scalar functions of a (n, b), u[n, b] and r[n, b]; the new input trace at (k, b) is 0.1 · eps[k, b] + X[k, b];
  and the new eligibility trace at (n, k) is Σ_b h[n, b] · new_eps[k, b].  The kernel reaches these through its two
  regions and the host stretch between them (the current as eight 512-term partial sums per entry, the last product
  block by block), the reference through one 4096-term product and one 256-term product; over the extended reals the
  sums are the same sums.
-/
import proofs.«139415_j41248865910902_2_alg».proof.Defs
import proofs.«139415_j41248865910902_2_alg».proof.Proof.I.Run
import proofs.«139415_j41248865910902_2_alg».proof.Proof.Val.R0Final
import proofs.«139415_j41248865910902_2_alg».proof.Proof.Val.R1Value
import proofs.«139415_j41248865910902_2_alg».proof.Proof.Val.Pointwise
import proofs.«139415_j41248865910902_2_alg».proof.Proof.Val.RefRead
import proofs.«139415_j41248865910902_2_alg».proof.Proof.Gen.ReferenceIdeal.Run
import proofs.«139415_j41248865910902_2_alg».proof.Proof.Gen.Pre_finite_inputs
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal

variable (m : (ℓ : Loc nD τ sig) → Buf (Elt Ideal) ℓ) (ρ : Dev nD → PrngReg)

/-! ## The kernel's six results in terms of the launch contents -/

/-- The new input trace 0.1 · eps + X of the launch contents, entry by entry. -/
def newEpsArr (c : Dev nD) : S4096x256.Idx → EReal :=
  fun j => Cert.Spec.newEps (EPSarr (Hand.V1 m ρ) c j) (Xarr (Hand.V1 m ρ) c j)

/-- The host stretch leaves it in new_eps: eps is untouched by the first region, X is one of its inputs and is left
    as entered, and the stretch's four operations compose to 0.1 · eps + X. -/
theorem host_newEps (c : Dev nD) : Hand.W3 m ρ c (Proc.devRef .tc main_v3) = newEpsArr m ρ c := by
  have e5 : Hand.W2 m ρ c (Proc.devRef .tc main_arg5) = Hand.V1 m ρ c main_arg5 := Hand.W2_of_ne m ρ c main_arg5 (by decide)
  have e0 : Hand.W2 m ρ c (Proc.devRef .tc main_arg0) = Hand.V1 m ρ c main_arg0 :=
    (Hand.W2_arr m ρ c 1).trans (((Hand.dat0 (Hand.V1 m ρ) c).arrAt_in 1 rfl _).trans (Hand.A_eq0 (Hand.V1 m ρ) c 1))
  show StableHlo.after Gen.hostOps1 (Hand.W2 m ρ c) (Proc.devRef .tc main_v3) = _
  generalize Hand.W2 m ρ c = W at e5 e0 ⊢
  after_results
  rw [e5, e0]
  funext j
  exact newEps_host _ _ j

theorem end_z (c : Dev nD) : Hand.W4 m ρ c (Proc.devRef .tc main_v0_0) = Gz (Hand.V1 m ρ) c :=
  (Hand.W4_main_v0_0 m ρ c).trans (final_z (Hand.V1 m ρ) c)
theorem end_newU (c : Dev nD) : Hand.W4 m ρ c (Proc.devRef .tc main_v0_1) = Gnu (Hand.V1 m ρ) c :=
  (Hand.W4_main_v0_1 m ρ c).trans (final_nu (Hand.V1 m ρ) c)
theorem end_newR (c : Dev nD) : Hand.W4 m ρ c (Proc.devRef .tc main_v0_2) = Gnr (Hand.V1 m ρ) c :=
  (Hand.W4_main_v0_2 m ρ c).trans (final_nr (Hand.V1 m ρ) c)
theorem end_h (c : Dev nD) : Hand.W4 m ρ c (Proc.devRef .tc main_v0_3) = Gh (Hand.V1 m ρ) c :=
  (Hand.W4_main_v0_3 m ρ c).trans (final_h (Hand.V1 m ρ) c)
theorem end_newEps (c : Dev nD) : Hand.W4 m ρ c (Proc.devRef .tc main_v3) = newEpsArr m ρ c :=
  (Hand.W4_main_v3 m ρ c).trans (host_newEps m ρ c)
theorem end_newE (c : Dev nD) : Hand.W4 m ρ c (Proc.devRef .tc main_v4) = newE (Hand.V3 m ρ) c :=
  (Hand.W4_main_v4 m ρ c).trans (newE_array (Hand.V3 m ρ) c)

/-- The outer product the second region computes, in terms of the launch contents: the h it finds is the first
    region's, the new_eps it finds is the host stretch's. -/
theorem newE_launch (c : Dev nD) (n k : Fin 4096) :
    newE (Hand.V3 m ρ) c (ix2 n k) = ∑ b : Fin 256, Gh (Hand.V1 m ρ) c (ix2 n b) * newEpsArr m ρ c (ix2 k b) := by
  have eh : hArr (Hand.V3 m ρ) c = Gh (Hand.V1 m ρ) c := (Hand.V3_main_v0_3 m ρ c).trans (final_h (Hand.V1 m ρ) c)
  have ee : epsArr (Hand.V3 m ρ) c = newEpsArr m ρ c := host_newEps m ρ c
  rw [newE_at (Hand.V3 m ρ) c _ n k rfl rfl, eh, ee]

/-! ## The reference's six results are the same functions of the same arrays -/

open Cert.ReferenceIdeal.Read Cert.ReferenceIdeal.RefValue in
theorem ref_z_eq (c : Dev nD) :
    val_main_v19 (F := Ideal) (m ((c.tc : Thread nD τ).loc main_arg0)) (m ((c.tc : Thread nD τ).loc main_arg1)) (m ((c.tc : Thread nD τ).loc main_arg2)) (m ((c.tc : Thread nD τ).loc main_arg3))
      = Gz (Hand.V1 m ρ) c := by
  funext i
  obtain ⟨n, b, rfl⟩ : ∃ (n : Fin 4096) (b : Fin 256), i = ix2 n b := ⟨i 0, i 1, eq_ix2 i⟩
  rw [ref_z]
  rfl

open Cert.ReferenceIdeal.Read Cert.ReferenceIdeal.RefValue in
theorem ref_newU_eq (c : Dev nD) :
    val_main_v16 (F := Ideal) (m ((c.tc : Thread nD τ).loc main_arg0)) (m ((c.tc : Thread nD τ).loc main_arg1)) (m ((c.tc : Thread nD τ).loc main_arg2)) (m ((c.tc : Thread nD τ).loc main_arg3))
      = Gnu (Hand.V1 m ρ) c := by
  funext i
  obtain ⟨n, b, rfl⟩ : ∃ (n : Fin 4096) (b : Fin 256), i = ix2 n b := ⟨i 0, i 1, eq_ix2 i⟩
  rw [ref_newU]
  rfl

open Cert.ReferenceIdeal.Read Cert.ReferenceIdeal.RefValue in
theorem ref_newR_eq (c : Dev nD) :
    val_main_v17 (F := Ideal) (m ((c.tc : Thread nD τ).loc main_arg0)) (m ((c.tc : Thread nD τ).loc main_arg1)) (m ((c.tc : Thread nD τ).loc main_arg2)) (m ((c.tc : Thread nD τ).loc main_arg3))
      = Gnr (Hand.V1 m ρ) c := by
  funext i
  obtain ⟨n, b, rfl⟩ : ∃ (n : Fin 4096) (b : Fin 256), i = ix2 n b := ⟨i 0, i 1, eq_ix2 i⟩
  rw [ref_newR]
  rfl

open Cert.ReferenceIdeal.Read Cert.ReferenceIdeal.RefValue in
theorem ref_h_eq (c : Dev nD) :
    val_main_v33 (F := Ideal) (m ((c.tc : Thread nD τ).loc main_arg0)) (m ((c.tc : Thread nD τ).loc main_arg1)) (m ((c.tc : Thread nD τ).loc main_arg2)) (m ((c.tc : Thread nD τ).loc main_arg3))
      = Gh (Hand.V1 m ρ) c := by
  funext i
  obtain ⟨n, b, rfl⟩ : ∃ (n : Fin 4096) (b : Fin 256), i = ix2 n b := ⟨i 0, i 1, eq_ix2 i⟩
  rw [ref_h]
  rfl

open Cert.ReferenceIdeal.Read Cert.ReferenceIdeal.RefValue in
theorem ref_newEps_eq (c : Dev nD) :
    val_main_v22 (F := Ideal) (m ((c.tc : Thread nD τ).loc main_arg0)) (m ((c.tc : Thread nD τ).loc main_arg5)) = newEpsArr m ρ c := by
  funext i
  obtain ⟨k, b, rfl⟩ : ∃ (k : Fin 4096) (b : Fin 256), i = ix2 k b := ⟨i 0, i 1, eq_ix2 i⟩
  rw [ref_newEps]
  rfl

open Cert.ReferenceIdeal.Read Cert.ReferenceIdeal.RefValue in
theorem ref_newE_eq (c : Dev nD) :
    val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      = newE (Hand.V3 m ρ) c := by
  funext i
  obtain ⟨n, k, rfl⟩ : ∃ (n : Fin 4096) (k : Fin 4096), i = ix2 n k := ⟨i 0, i 1, eq_ix2 i⟩
  rw [ref_newE, newE_launch m ρ c n k]
  exact Finset.sum_congr rfl fun b _ => rfl

end Cert.KernelIdeal.Val

/-! ## The claim -/

namespace Cert.Proof.Claims

open Idealize.ShloMosaic Idealize.ShloMosaic.TcCoe Idealize.SL.Sem
open Cert.KernelIdeal Cert.KernelIdeal.Val

/-- Both programs run, their six results are equal array by array, and their arguments end as launched. -/
theorem algebraic : Cert.algebraic_KernelIdeal_ReferenceIdeal := by
  intro m ρ m' ρ' _ hagree
  refine ⟨fun c => Gz (Hand.V1 m ρ) c, fun c => Gnu (Hand.V1 m ρ) c, fun c => Gnr (Hand.V1 m ρ) c,
    fun c => newE (Hand.V3 m ρ) c, fun c => newEpsArr m ρ c, fun c => Gh (Hand.V1 m ρ) c, ?_, ?_⟩
  · exact (θ_run Cert.KernelIdeal.defs _ _).mono (fun r h c =>
      ⟨(Hand.read_end m ρ h c main_v0_0 (by decide)).trans (end_z m ρ c),
       (Hand.read_end m ρ h c main_v0_1 (by decide)).trans (end_newU m ρ c),
       (Hand.read_end m ρ h c main_v0_2 (by decide)).trans (end_newR m ρ c),
       (Hand.read_end m ρ h c main_v4 (by decide)).trans (end_newE m ρ c),
       (Hand.read_end m ρ h c main_v3 (by decide)).trans (end_newEps m ρ c),
       (Hand.read_end m ρ h c main_v0_3 (by decide)).trans (end_h m ρ c),
       (Hand.read_end m ρ h c main_arg0 (by decide)).trans (Hand.W4_main_arg0 m ρ c),
       (Hand.read_end m ρ h c main_arg1 (by decide)).trans (Hand.W4_main_arg1 m ρ c),
       (Hand.read_end m ρ h c main_arg2 (by decide)).trans (Hand.W4_main_arg2 m ρ c),
       (Hand.read_end m ρ h c main_arg3 (by decide)).trans (Hand.W4_main_arg3 m ρ c),
       (Hand.read_end m ρ h c main_arg4 (by decide)).trans (Hand.W4_main_arg4 m ρ c),
       (Hand.read_end m ρ h c main_arg5 (by decide)).trans (Hand.W4_main_arg5 m ρ c)⟩) (Hand.run_all m ρ)
  · refine (θ_run Cert.ReferenceIdeal.defs _ _).mono (fun r h c => ?_) (Cert.ReferenceIdeal.Value.run (F := Ideal) m' ρ')
    obtain ⟨h19, h16, h17, h34, h22, h33, hargs⟩ := h c
    obtain ⟨a0, a1, a2, a3, a4, a5⟩ := hagree c
    refine ⟨h19.trans ((Cert.ReferenceIdeal.Read.val_main_v19_eq _ _ _ _).trans ?_),
      h16.trans ((Cert.ReferenceIdeal.Read.val_main_v16_eq _ _ _ _).trans ?_),
      h17.trans ((Cert.ReferenceIdeal.Read.val_main_v17_eq _ _ _ _).trans ?_),
      h34.trans ((Cert.ReferenceIdeal.Read.val_main_v34_eq _ _ _ _ _).trans ?_),
      h22.trans ((Cert.ReferenceIdeal.Read.val_main_v22_eq _ _).trans ?_),
      h33.trans ((Cert.ReferenceIdeal.Read.val_main_v33_eq _ _ _ _).trans ?_), hargs⟩
    · rw [a0, a1, a2, a3]; exact ref_z_eq m ρ c
    · rw [a0, a1, a2, a3]; exact ref_newU_eq m ρ c
    · rw [a0, a1, a2, a3]; exact ref_newR_eq m ρ c
    · rw [a0, a1, a2, a3, a5]; exact ref_newE_eq m ρ c
    · rw [a0, a5]; exact ref_newEps_eq m ρ c
    · rw [a0, a1, a2, a3]; exact ref_h_eq m ρ c

end Cert.Proof.Claims

end
-- ==== Proof.lean ====
/-
  One step of a layer of leaky integrate-and-fire neurons, as a two-kernel program, against its plain reference.

  The program: the kernel of the first call walks a 4 × 8 grid; for row block i it accumulates, over the eight
  column blocks k, the product of W's 1024 × 512 block (i, k) with the 512 rows of the inputs that block
  contracts over — an accumulator that lives in the kernel's own scratch memory across the eight steps —,
  and at k = 7 computes from the finished accumulator a, the potentials u and the refractory counters r the
  new potentials, the new counters, the spikes and the pseudo-derivative h, all pointwise.  The host then forms
  the new input traces 0.1 · eps + inputs, and the kernel of the second call, on a 4 × 4 grid, writes block
  (i, j) of the new eligibility trace as the product of h's row block i with the transposed row block j of the
  new input traces, contracting the 256 lanes.  The reference computes the same quantities with one 4096-term
  matrix product and one einsum.

  The five claims.  Each program runs to the end, faulting nowhere, and leaves its six arguments as launched:
  for the two-kernel program, at the word level and at the extended reals alike, from the run of its three
  items (the first region, the host stretch, the second region) in which the first region's invariant carries
  the accumulator from grid point to grid point; for the reference, from its run as a sequence of host
  operations.  No rewrite was applied in reading the kernel over the extended reals, so that claim is empty.
  Over the extended reals the two programs' six results agree entry by entry: the eight partial products of a
  row block add up to the 4096-term sum (addition of extended reals is associative and commutative; nothing
  has to be finite), a format change is the identity, the pointwise update is literally the same expression
  of (a, u, r) on both sides, and the second product is the same 256-term sum.
-/
import proofs.«139415_j41248865910902_2_alg».proof.Defs
import proofs.«139415_j41248865910902_2_alg».proof.Proof.Gen.Kernel
import proofs.«139415_j41248865910902_2_alg».proof.Proof.Gen.Kernel.Skeleton
import proofs.«139415_j41248865910902_2_alg».proof.Proof.Gen.Kernel.Launch
import proofs.«139415_j41248865910902_2_alg».proof.Proof.Gen.Kernel.Regions
import proofs.«139415_j41248865910902_2_alg».proof.Proof.Gen.Kernel.Points
import proofs.«139415_j41248865910902_2_alg».proof.Proof.Gen.KernelIdeal
import proofs.«139415_j41248865910902_2_alg».proof.Proof.Gen.KernelIdeal.Skeleton
import proofs.«139415_j41248865910902_2_alg».proof.Proof.Gen.KernelIdeal.Launch
import proofs.«139415_j41248865910902_2_alg».proof.Proof.Gen.KernelIdeal.Regions
import proofs.«139415_j41248865910902_2_alg».proof.Proof.Gen.KernelIdeal.Points
import proofs.«139415_j41248865910902_2_alg».proof.Proof.Gen.ReferenceIdeal
import proofs.«139415_j41248865910902_2_alg».proof.Proof.Gen.Pre_finite_inputs
import proofs.«139415_j41248865910902_2_alg».proof.Proof.Frames
import proofs.«139415_j41248865910902_2_alg».proof.Proof.Val.Algebraic
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Frames.frame_p, Frames.frame_pi, Frames.frame_ri, trivial, Claims.algebraic⟩

end Cert.Proof

end
